-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x1024 : Shape := ⟨3, ![1024, 128, 1024]⟩
abbrev S5120 : Shape := ⟨1, ![5120]⟩
abbrev S1024x1024 : Shape := ⟨2, ![1024, 1024]⟩
abbrev S5x1024 : Shape := ⟨2, ![5, 1024]⟩
abbrev S1024 : Shape := ⟨1, ![1024]⟩
abbrev S_ : Shape := ⟨0, ![]⟩

class Facts : Prop where
  bcast_S_S1024x128x1024 : S_.BroadcastsInDim S1024x128x1024 (![] : Fin 0 → Fin S1024x128x1024.rank)
  reducesTo_S1024x128x1024_S_d0_1_2 : S1024x128x1024.ReducesTo [0, 1, 2] S_
  h_S_ : 0 < S_.numel
  bcast_S_S5120 : S_.BroadcastsInDim S5120 (![] : Fin 0 → Fin S5120.rank)
  reducesTo_S5120_S_d0 : S5120.ReducesTo [0] S_
  bcast_S_S1024x1024 : S_.BroadcastsInDim S1024x1024 (![] : Fin 0 → Fin S1024x1024.rank)
  reducesTo_S1024x1024_S_d0_1 : S1024x1024.ReducesTo [0, 1] S_
  bcast_S_S5x1024 : S_.BroadcastsInDim S5x1024 (![] : Fin 0 → Fin S5x1024.rank)
  reducesTo_S5x1024_S_d0_1 : S5x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S5x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S5x1024 .f32 := Host.absf main_arg5
  let main_cst_8 : FVec F S_ .f32 := constant S_ .f32 0x7F800000#32
  let main_v25 : FVec F S5x1024 .f32 := broadcastInDim S5x1024 ![] bcast_S_S5x1024 main_cst_8
  let main_v26 : IVec S5x1024 1 := cmpf .olt main_v24 main_v25
  let main_c_9 : IVec S_ 1 := constantI S_ 1 1#1
  let main_v27 : IVec S_ 1 := (fun x v => Host.reduce IntOp.andi x v reducesTo_S5x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S1024x128x1024 .f32) (main_arg1 : FVec F S5120 .f32) (main_arg2 : FVec F S1024x1024 .f32) (main_arg3 : FVec F S1024x1024 .f32) (main_arg4 : FVec F S1024x1024 .f32) (main_arg5 : FVec F S5x1024 .f32) (main_arg6 : FVec F S1024 .f32) : IVec S_ 1 :=
  let main_v0 : FVec F S1024x128x1024 .f32 := Host.absf main_arg0
  let main_cst : FVec F S_ .f32 := constant S_ .f32 0x7F800000#32
  let main_v1 : FVec F S1024x128x1024 .f32 := broadcastInDim S1024x128x1024 ![] bcast_S_S1024x128x1024 main_cst
  let main_v2 : IVec S1024x128x1024 1 := cmpf .olt main_v0 main_v1
  let main_c : IVec S_ 1 := constantI S_ 1 1#1
  let main_v3 : IVec S_ 1 := (fun x v => Host.reduce IntOp.andi x v reducesTo_S1024x128x1024_S_d0_1_2 h_S_) main_v2 main_c
  let main_v4 : FVec F S5120 .f32 := Host.absf main_arg1
  let main_cst_0 : FVec F S_ .f32 := constant S_ .f32 0x7F800000#32
  let main_v5 : FVec F S5120 .f32 := broadcastInDim S5120 ![] bcast_S_S5120 main_cst_0
  let main_v6 : IVec S5120 1 := cmpf .olt main_v4 main_v5
  let main_c_1 : IVec S_ 1 := constantI S_ 1 1#1
  let main_v7 : IVec S_ 1 := (fun x v => Host.reduce IntOp.andi x v reducesTo_S5120_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S1024x128x1024 : Shape := ⟨3, ![1024, 128, 1024]⟩
abbrev S5120 : Shape := ⟨1, ![5120]⟩
abbrev S1024x1024 : Shape := ⟨2, ![1024, 1024]⟩
abbrev S5x1024 : Shape := ⟨2, ![5, 1024]⟩
abbrev S1024 : Shape := ⟨1, ![1024]⟩
abbrev S1024x1x1024 : Shape := ⟨3, ![1024, 1, 1024]⟩
abbrev S1x1024 : Shape := ⟨2, ![1, 1024]⟩
abbrev S5x1024x1024 : Shape := ⟨3, ![5, 1024, 1024]⟩
abbrev S256x1024 : Shape := ⟨2, ![256, 1024]⟩
abbrev S5x256x1024 : Shape := ⟨3, ![5, 256, 1024]⟩
abbrev S1x256x1024 : Shape := ⟨3, ![1, 256, 1024]⟩
abbrev S5120x1024 : Shape := ⟨2, ![5120, 1024]⟩

abbrev nBuf : Space → Nat
  | .hbm => 15
  | .vmem => 16
  | .smem => 0
  | _ => 0

abbrev bufTy : (tb : Table) → Fin (tcTables nBuf tb) → BufTy
  | .hbm, ⟨0, _⟩ => ⟨S1024x128x1024, .f32⟩
  | .hbm, ⟨1, _⟩ => ⟨S5120, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S5x1024, .f32⟩
  | .hbm, ⟨6, _⟩ => ⟨S1024, .f32⟩
  | .hbm, ⟨7, _⟩ => ⟨S1024x1x1024, .f32⟩
  | .hbm, ⟨8, _⟩ => ⟨S1024x1024, .f32⟩
  | .hbm, ⟨9, _⟩ => ⟨S5x1024, .f32⟩
  | .hbm, ⟨10, _⟩ => ⟨S1x1024, .f32⟩
  | .hbm, ⟨11, _⟩ => ⟨S5x1024, .f32⟩
  | .hbm, ⟨12, _⟩ => ⟨S5x1024, .f32⟩
  | .hbm, ⟨13, _⟩ => ⟨S5x1024x1024, .f32⟩
  | .hbm, ⟨14, _⟩ => ⟨S5120x1024, .f32⟩
  | .local _ .vmem, ⟨0, _⟩ => ⟨S1024x1024, .f32⟩
  | .local _ .vmem, ⟨1, _⟩ => ⟨S5x1024, .f32⟩
  | .local _ .vmem, ⟨2, _⟩ => ⟨S5x1024, .f32⟩
  | .local _ .vmem, ⟨3, _⟩ => ⟨S1024x1024, .f32⟩
  | .local _ .vmem, ⟨4, _⟩ => ⟨S1024x1024, .f32⟩
  | .local _ .vmem, ⟨5, _⟩ => ⟨S5x1024, .f32⟩
  | .local _ .vmem, ⟨6, _⟩ => ⟨S5x1024, .f32⟩
  | .local _ .vmem, ⟨7, _⟩ => ⟨S256x1024, .f32⟩
  | .local _ .vmem, ⟨8, _⟩ => ⟨S256x1024, .f32⟩
  | .local _ .vmem, ⟨9, _⟩ => ⟨S1024x1024, .f32⟩
  | .local _ .vmem, ⟨10, _⟩ => ⟨S5x1024, .f32⟩
  | .local _ .vmem, ⟨11, _⟩ => ⟨S5x1024, .f32⟩
  | .local _ .vmem, ⟨12, _⟩ => ⟨S5x1024, .f32⟩
  | .local _ .vmem, ⟨13, _⟩ => ⟨S1x1024, .f32⟩
  | .local _ .vmem, ⟨14, _⟩ => ⟨S5x256x1024, .f32⟩
  | .local _ .vmem, ⟨15, _⟩ => ⟨S5x256x1024, .f32⟩
  | _, _ => ⟨S1024x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S1024x128x1024_S1024x1x1024_0_0_0 : S1024x128x1024.Slices ![0, 0, 0] S1024x1x1024
  shapeCasts_S1024x1x1024_S1024x1024 : S1024x1x1024.ShapeCasts S1024x1024
  shapeCasts_S5120_S5x1024 : S5120.ShapeCasts S5x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S5x1024_S5x1024_0_0 : ∀ a, (![0, 0] : Fin 2 → Nat) a + S5x1024.size a ≤ S5x1024.size a
  h_S5x1024 : 0 < S5x1024.numel
  shapeCasts_S5x1024_S5x1024 : S5x1024.ShapeCasts S5x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S5x1024_o0_0_S1x1024 : S5x1024.Slices ![0, 0] S1x1024
  broadcasts_S1x1024_S256x1024 : S1x1024.Broadcasts S256x1024
  inb_S5x256x1024_S1x256x1024_0_0_0 : ∀ a, (![0, 0, 0] : Fin 3 → Nat) a + S1x256x1024.size a ≤ S5x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  slices_S5x1024_o1_0_S1x1024 : S5x1024.Slices ![1, 0] S1x1024
  inb_S5x256x1024_S1x256x1024_1_0_0 : ∀ a, (![1, 0, 0] : Fin 3 → Nat) a + S1x256x1024.size a ≤ S5x256x1024.size a
  slices_S5x1024_o2_0_S1x1024 : S5x1024.Slices ![2, 0] S1x1024
  inb_S5x256x1024_S1x256x1024_2_0_0 : ∀ a, (![2, 0, 0] : Fin 3 → Nat) a + S1x256x1024.size a ≤ S5x256x1024.size a
  slices_S5x1024_o3_0_S1x1024 : S5x1024.Slices ![3, 0] S1x1024
  inb_S5x256x1024_S1x256x1024_3_0_0 : ∀ a, (![3, 0, 0] : Fin 3 → Nat) a + S1x256x1024.size a ≤ S5x256x1024.size a
  slices_S5x1024_o4_0_S1x1024 : S5x1024.Slices ![4, 0] S1x1024
  inb_S5x256x1024_S1x256x1024_4_0_0 : ∀ a, (![4, 0, 0] : Fin 3 → Nat) a + S1x256x1024.size a ≤ S5x256x1024.size a
  shapeCasts_S5x1024x1024_S5120x1024 : S5x1024x1024.ShapeCasts S5120x1024
  dot_S5x1024_S1024x1024_S5x1024_1_1_0_0_n_n_wf : DotDims.WF S5x1024 S1024x1024 S5x1024 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x1024.size a ≤ S5x1024.size a
  hwx0_1 : ∀ i : grid0.Coords, EltTy.bits .f32 = 32 ∨ (Rect.block (s := S5x1024) S5x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1024.size a ≤ S5x1024.size a
  hwx0_2 : ∀ i : grid0.Coords, EltTy.bits .f32 = 32 ∨ (Rect.block (s := S5x1024) S5x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1024.size a ≤ S5x1024.size a
  hwx0_5 : ∀ i : grid0.Coords, EltTy.bits .f32 = 32 ∨ (Rect.block (s := S5x1024) S5x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1024.size a ≤ S5x1024.size a
  hwx0_6 : ∀ i : grid0.Coords, EltTy.bits .f32 = 32 ∨ (Rect.block (s := S5x1024) S5x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S1024x1024.size a
  hwx1_0 : ∀ i : grid1.Coords, EltTy.bits .f32 = 32 ∨ (Rect.block (s := S1024x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x1024.size a ≤ S5x1024.size a
  hwx1_2 : ∀ i : grid1.Coords, EltTy.bits .f32 = 32 ∨ (Rect.block (s := S5x1024) S5x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x1024.size a ≤ S5x1024.size a
  hwx1_3 : ∀ i : grid1.Coords, EltTy.bits .f32 = 32 ∨ (Rect.block (s := S5x1024) S5x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5x1024.size a ≤ S5x1024.size a
  hwx1_4 : ∀ i : grid1.Coords, EltTy.bits .f32 = 32 ∨ (Rect.block (s := S5x1024) S5x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5x256x1024.size a ≤ S5x1024x1024.size a
  hwx1_6 : ∀ i : grid1.Coords, EltTy.bits .f32 = 32 ∨ (Rect.block (s := S5x1024x1024) S5x256x1024.size (cc1_transform_6 i) (hinb1_6 i)).WholeWords (EltTy.packing .f32)

variable [Facts₀]

def dot_S5x1024_S1024x1024_S5x1024_1_1_0_0_n_n : DotDims S5x1024 S1024x1024 S5x1024 where
  lhsContracting := [1]
  rhsContracting := [1]
  lhsNonContracting := [0]
  rhsNonContracting := [0]
  lhsBatch := []
  rhsBatch := []
  wf := dot_S5x1024_S1024x1024_S5x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v1) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S5x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S5x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S5x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S5x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S5x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S5x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x128x1024 : Shape := ⟨3, ![1024, 128, 1024]⟩
abbrev S5120 : Shape := ⟨1, ![5120]⟩
abbrev S1024x1024 : Shape := ⟨2, ![1024, 1024]⟩
abbrev S5x1024 : Shape := ⟨2, ![5, 1024]⟩
abbrev S1024 : Shape := ⟨1, ![1024]⟩
abbrev S1024x1x1024 : Shape := ⟨3, ![1024, 1, 1024]⟩
abbrev S1024x5 : Shape := ⟨2, ![1024, 5]⟩
abbrev S_ : Shape := ⟨0, ![]⟩
abbrev S5x1x1024 : Shape := ⟨3, ![5, 1, 1024]⟩
abbrev S1x1024x1024 : Shape := ⟨3, ![1, 1024, 1024]⟩
abbrev S5x1024x1024 : Shape := ⟨3, ![5, 1024, 1024]⟩
abbrev S1x1x1024 : Shape := ⟨3, ![1, 1, 1024]⟩
abbrev S5120x1024 : Shape := ⟨2, ![5120, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024x128x1024, .f32⟩
  | .hbm, ⟨1, _⟩ => ⟨S5120, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S5x1024, .f32⟩
  | .hbm, ⟨6, _⟩ => ⟨S1024, .f32⟩
  | .hbm, ⟨7, _⟩ => ⟨S1024x1x1024, .f32⟩
  | .hbm, ⟨8, _⟩ => ⟨S1024x1024, .f32⟩
  | .hbm, ⟨9, _⟩ => ⟨S5x1024, .f32⟩
  | .hbm, ⟨10, _⟩ => ⟨S5x1024, .f32⟩
  | .hbm, ⟨11, _⟩ => ⟨S1024x5, .f32⟩
  | .hbm, ⟨12, _⟩ => ⟨S1024x5, .f32⟩
  | .hbm, ⟨13, _⟩ => ⟨S1024x5, .f32⟩
  | .hbm, ⟨14, _⟩ => ⟨S1024x5, .f32⟩
  | .hbm, ⟨15, _⟩ => ⟨S_, .f32⟩
  | .hbm, ⟨16, _⟩ => ⟨S1024x5, .f32⟩
  | .hbm, ⟨17, _⟩ => ⟨S1024x5, .f32⟩
  | .hbm, ⟨18, _⟩ => ⟨S_, .f32⟩
  | .hbm, ⟨19, _⟩ => ⟨S1024x5, .f32⟩
  | .hbm, ⟨20, _⟩ => ⟨S1024x5, .f32⟩
  | .hbm, ⟨21, _⟩ => ⟨S1024x1024, .f32⟩
  | .hbm, ⟨22, _⟩ => ⟨S5x1024, .f32⟩
  | .hbm, ⟨23, _⟩ => ⟨S1024x1024, .f32⟩
  | .hbm, ⟨24, _⟩ => ⟨S5x1024, .f32⟩
  | .hbm, ⟨25, _⟩ => ⟨S5x1024, .f32⟩
  | .hbm, ⟨26, _⟩ => ⟨S5x1x1024, .f32⟩
  | .hbm, ⟨27, _⟩ => ⟨S1024x1024, .f32⟩
  | .hbm, ⟨28, _⟩ => ⟨S1024x1024, .f32⟩
  | .hbm, ⟨29, _⟩ => ⟨S1x1024x1024, .f32⟩
  | .hbm, ⟨30, _⟩ => ⟨S5x1024x1024, .f32⟩
  | .hbm, ⟨31, _⟩ => ⟨S5x1024x1024, .f32⟩
  | .hbm, ⟨32, _⟩ => ⟨S5x1024x1024, .f32⟩
  | .hbm, ⟨33, _⟩ => ⟨S_, .f32⟩
  | .hbm, ⟨34, _⟩ => ⟨S5x1024x1024, .f32⟩
  | .hbm, ⟨35, _⟩ => ⟨S5x1024x1024, .i1⟩
  | .hbm, ⟨36, _⟩ => ⟨S1x1x1024, .f32⟩
  | .hbm, ⟨37, _⟩ => ⟨S5x1024x1024, .f32⟩
  | .hbm, ⟨38, _⟩ => ⟨S5x1024x1024, .f32⟩
  | .hbm, ⟨39, _⟩ => ⟨S5x1024x1024, .f32⟩
  | .hbm, ⟨40, _⟩ => ⟨S5x1x1024, .f32⟩
  | .hbm, ⟨41, _⟩ => ⟨S5x1024, .f32⟩
  | .hbm, ⟨42, _⟩ => ⟨S5x1x1024, .f32⟩
  | .hbm, ⟨43, _⟩ => ⟨S5x1024x1024, .f32⟩
  | .hbm, ⟨44, _⟩ => ⟨S5x1024x1024, .f32⟩
  | .hbm, ⟨45, _⟩ => ⟨S5x1024x1024, .f32⟩
  | .hbm, ⟨46, _⟩ => ⟨S5x1024x1024, .f32⟩
  | .hbm, ⟨47, _⟩ => ⟨S_, .f32⟩
  | .hbm, ⟨48, _⟩ => ⟨S5x1024x1024, .f32⟩
  | .hbm, ⟨49, _⟩ => ⟨S5x1024x1024, .i1⟩
  | .hbm, ⟨50, _⟩ => ⟨S_, .f32⟩
  | .hbm, ⟨51, _⟩ => ⟨S5x1024x1024, .f32⟩
  | .hbm, ⟨52, _⟩ => ⟨S5x1024x1024, .f32⟩
  | .hbm, ⟨53, _⟩ => ⟨S5x1024x1024, .f32⟩
  | .hbm, ⟨54, _⟩ => ⟨S5x1024x1024, .f32⟩
  | .hbm, ⟨55, _⟩ => ⟨S5120x1024, .f32⟩
  | _, _ => ⟨S1024x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_call1_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  slices_S1024x128x1024_S1024x1x1024_0_0_0 : S1024x128x1024.Slices ![0, 0, 0] S1024x1x1024
  shapeCasts_S1024x1x1024_S1024x1024 : S1024x1x1024.ShapeCasts S1024x1024
  shapeCasts_S5120_S5x1024 : S5120.ShapeCasts S5x1024
  transposes_S5x1024_S1024x5_1_0 : S5x1024.Transposes [1, 0] S1024x5
  bcast_S_S1024x5 : S_.BroadcastsInDim S1024x5 (![] : Fin 0 → Fin S1024x5.rank)
  transposes_S1024x1024_S1024x1024_1_0 : S1024x1024.Transposes [1, 0] S1024x1024
  bcast_S5x1024_S5x1x1024_0_2 : S5x1024.BroadcastsInDim S5x1x1024 (![0, 2] : Fin 2 → Fin S5x1x1024.rank)
  bcast_S1024x1024_S1x1024x1024_1_2 : S1024x1024.BroadcastsInDim S1x1024x1024 (![1, 2] : Fin 2 → Fin S1x1024x1024.rank)
  bcast_S5x1x1024_S5x1024x1024_0_1_2 : S5x1x1024.BroadcastsInDim S5x1024x1024 (![0, 1, 2] : Fin 3 → Fin S5x1024x1024.rank)
  bcast_S1x1024x1024_S5x1024x1024_0_1_2 : S1x1024x1024.BroadcastsInDim S5x1024x1024 (![0, 1, 2] : Fin 3 → Fin S5x1024x1024.rank)
  bcast_S_S5x1024x1024 : S_.BroadcastsInDim S5x1024x1024 (![] : Fin 0 → Fin S5x1024x1024.rank)
  bcast_S1024_S1x1x1024_2 : S1024.BroadcastsInDim S1x1x1024 (![2] : Fin 1 → Fin S1x1x1024.rank)
  bcast_S1x1x1024_S5x1024x1024_0_1_2 : S1x1x1024.BroadcastsInDim S5x1024x1024 (![0, 1, 2] : Fin 3 → Fin S5x1024x1024.rank)
  transposes_S1024x5_S5x1024_1_0 : S1024x5.Transposes [1, 0] S5x1024
  shapeCasts_S5x1024x1024_S5120x1024 : S5x1024x1024.ShapeCasts S5120x1024
  dot_S1024x1024_S1024x5_S1024x5_1_0_0_1_n_n_wf : DotDims.WF S1024x1024 S1024x5 S1024x5 [1] [0] [0] [1] [] []
  dot_S5x1024_S1024x1024_S5x1024_1_0_0_1_n_n_wf : DotDims.WF S5x1024 S1024x1024 S5x1024 [1] [0] [0] [1] [] []
  dot_S1024x1024_S1024x1024_S1024x1024_1_0_0_1_n_n_wf : DotDims.WF S1024x1024 S1024x1024 S1024x1024 [1] [0] [0] [1] [] []

variable [Facts₀]

def dot_S1024x1024_S1024x5_S1024x5_1_0_0_1_n_n : DotDims S1024x1024 S1024x5 S1024x5 where
  lhsContracting := [1]
  rhsContracting := [0]
  lhsNonContracting := [0]
  rhsNonContracting := [1]
  lhsBatch := []
  rhsBatch := []
  wf := dot_S1024x1024_S1024x5_S1024x5_1_0_0_1_n_n_wf
def dot_S5x1024_S1024x1024_S5x1024_1_0_0_1_n_n : DotDims S5x1024 S1024x1024 S5x1024 where
  lhsContracting := [1]
  rhsContracting := [0]
  lhsNonContracting := [0]
  rhsNonContracting := [1]
  lhsBatch := []
  rhsBatch := []
  wf := dot_S5x1024_S1024x1024_S5x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.KRun.lean ====
/-
  The run of the idealized kernel program with its result named.

  @main is four segments: the host operations that cut the class token out of the features and reshape the
  states and the slopes, the two kernel regions, and the host reshape of the second region's array into the
  result.  The buffer contents at the four boundaries are the fold `W0 … W4` through those segments.  Every
  weakly fair execution terminates, the arguments end as launched, and the result buffer ends at the last
  boundary's contents `W4` at the result's reference: that is what is stated here, for any float instance.
  What those contents are, as a function of the arguments, is read in the modules that import this one.
-/
import proofs.«141631_j16217796510025_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents at the result's reference, and every argument array what it was launched with. -/
theorem run_result : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Val

end
-- ==== Proof.KReg0.lean ====
/-
  The first kernel region, read as values.

  Its grid has ONE point and each of its seven windows' block is the window's whole array: the encoding
  [1024, 1024], the block states and the keys [5, 1024], the two weight matrices [1024, 1024], and the two
  outputs [5, 1024].  So the block a window stages at the point is the array itself (a block's element sits at
  block index × block size + its coordinate, and every block index is 0), the one store of each output through
  the whole buffer leaves that store's payload, and the point's write-back covers the whole output array.
  Hence, whatever the region finds in its arrays (`V`), the first output array ends at the first payload of
  the three arrays it reads, and the second at the second payload of its four.
-/
import proofs.«141631_j16217796510025_1_alg».proof.Proof.Gen.KernelIdeal.Frame
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (V : (c : Dev nD) → (b : Ref sig .tc) → Buf (Elt F) ((c : Thread nD τ).loc b))

theorem zero2 : (![0, 0] : Fin 2 → Nat) = fun _ => 0 := funext fun a => by fin_cases a <;> rfl

/-- Every window's block index, on both axes, is 0 at the one point. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Input window 0's block at the point is its array as the region finds it. -/
theorem iblk0_0 (c : Dev nD) (t : Fin cfg0.N) : (iblk0 V c 0 t : S1024x1024.Idx → Elt F .f32) = V c main_v1 := by
  funext y
  show V c main_v1 (((cfg0.win 0).blk t).view.emb y) = V c main_v1 y
  refine congrArg (V c main_v1) ?_
  obtain ⟨e0a, e0b, e1a, e1b, e2a, e2b, e3a, e3b, e4a, e4b, e5a, e5b, e6a, e6b⟩ := idx0 t
  funext a; apply Fin.ext
  match a with
  | ⟨0, _⟩ => show win0_0.index t (0 : Fin 2) * 1024 + 1 * (y 0).val = (y 0).val; omega
  | ⟨1, _⟩ => show win0_0.index t (1 : Fin 2) * 1024 + 1 * (y 1).val = (y 1).val; omega

/-- Input window 1's block at the point is its array as the region finds it. -/
theorem iblk0_1 (c : Dev nD) (t : Fin cfg0.N) : (iblk0 V c 1 t : S5x1024.Idx → Elt F .f32) = V c main_v2 := by
  funext y
  show V c main_v2 (((cfg0.win 1).blk t).view.emb y) = V c main_v2 y
  refine congrArg (V c main_v2) ?_
  obtain ⟨e0a, e0b, e1a, e1b, e2a, e2b, e3a, e3b, e4a, e4b, e5a, e5b, e6a, e6b⟩ := idx0 t
  funext a; apply Fin.ext
  match a with
  | ⟨0, _⟩ => show win0_1.index t (0 : Fin 2) * 5 + 1 * (y 0).val = (y 0).val; omega
  | ⟨1, _⟩ => show win0_1.index t (1 : Fin 2) * 1024 + 1 * (y 1).val = (y 1).val; omega

/-- Input window 2's block at the point is its array as the region finds it. -/
theorem iblk0_2 (c : Dev nD) (t : Fin cfg0.N) : (iblk0 V c 2 t : S5x1024.Idx → Elt F .f32) = V c main_arg5 := by
  funext y
  show V c main_arg5 (((cfg0.win 2).blk t).view.emb y) = V c main_arg5 y
  refine congrArg (V c main_arg5) ?_
  obtain ⟨e0a, e0b, e1a, e1b, e2a, e2b, e3a, e3b, e4a, e4b, e5a, e5b, e6a, e6b⟩ := idx0 t
  funext a; apply Fin.ext
  match a with
  | ⟨0, _⟩ => show win0_2.index t (0 : Fin 2) * 5 + 1 * (y 0).val = (y 0).val; omega
  | ⟨1, _⟩ => show win0_2.index t (1 : Fin 2) * 1024 + 1 * (y 1).val = (y 1).val; omega

/-- Input window 3's block at the point is its array as the region finds it. -/
theorem iblk0_3 (c : Dev nD) (t : Fin cfg0.N) : (iblk0 V c 3 t : S1024x1024.Idx → Elt F .f32) = V c main_arg2 := by
  funext y
  show V c main_arg2 (((cfg0.win 3).blk t).view.emb y) = V c main_arg2 y
  refine congrArg (V c main_arg2) ?_
  obtain ⟨e0a, e0b, e1a, e1b, e2a, e2b, e3a, e3b, e4a, e4b, e5a, e5b, e6a, e6b⟩ := idx0 t
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Input window 4's block at the point is its array as the region finds it. -/
theorem iblk0_4 (c : Dev nD) (t : Fin cfg0.N) : (iblk0 V c 4 t : S1024x1024.Idx → Elt F .f32) = V c main_arg3 := by
  funext y
  show V c main_arg3 (((cfg0.win 4).blk t).view.emb y) = V c main_arg3 y
  refine congrArg (V c main_arg3) ?_
  obtain ⟨e0a, e0b, e1a, e1b, e2a, e2b, e3a, e3b, e4a, e4b, e5a, e5b, e6a, e6b⟩ := idx0 t
  funext a; apply Fin.ext
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Reading output window 5's block at the point off a whole-array contents gives those contents. -/
theorem read0_5 (t : Fin cfg0.N) (G : S5x1024.Idx → Elt F .f32) :
    (((cfg0.win 5).blk t).view.read (Elt F) G : S5x1024.Idx → Elt F .f32) = G := by
  funext y
  show G (((cfg0.win 5).blk t).view.emb y) = G y
  refine congrArg G ?_
  obtain ⟨e0a, e0b, e1a, e1b, e2a, e2b, e3a, e3b, e4a, e4b, e5a, e5b, e6a, e6b⟩ := idx0 t
  funext a; apply Fin.ext
  match a with
  | ⟨0, _⟩ => show win0_5.index t (0 : Fin 2) * 5 + 1 * (y 0).val = (y 0).val; omega
  | ⟨1, _⟩ => show win0_5.index t (1 : Fin 2) * 1024 + 1 * (y 1).val = (y 1).val; omega

/-- What the point writes back through output window 5: the payload of the arrays it reads. -/
theorem flushed0_5_eq (c : Dev nD) (t : Fin cfg0.N) :
    (dat0 V c).flushed 5 t = ((cfg0.win 5).blk t).view.read (Elt F) (k0_pay2 (V c main_v1) (V c main_v2) (V c main_arg5)) := by
  show (cfg0.win 5).cut (grid0.coords t) ((dat0 V c).after 5 t) = _
  rw [after0_5]
  unfold out0_5
  rw [View.canon_unit_zero zero2]
  simp only [View.ld_unit_zero (S := S1024x1024) zero2, View.ld_unit_zero (S := S5x1024) zero2]
  rw [read0_5 t]
  show (k0_pay2 (iblk0 V c 0 t) (iblk0 V c 1 t) (iblk0 V c 2 t) : S5x1024.Idx → Elt F .f32) = _
  rw [iblk0_0 V c t, iblk0_1 V c t, iblk0_2 V c t]

/-- Every index of output 5's array is in the one point's block. -/
theorem cover0_5_all (i : S5x1024.Idx) : ∃ t : Fin cfg0.N, (cfg0.win 5).flush t = true ∧ i ∈ ((cfg0.win 5).blk t).view.set := by
  have hN : 0 < cfg0.N := by rw [show cfg0.N = grid0.N from rfl, N_0]; exact Nat.one_pos
  refine ⟨⟨0, hN⟩, flush0_5 _, ?_⟩
  show i ∈ ((View.whole main_v4_0).slice (win0_5.rect ⟨0, hN⟩)).set
  rw [View.set_slice_whole, Rect.mem_set_unit]
  obtain ⟨e0a, e0b, e1a, e1b, e2a, e2b, e3a, e3b, e4a, e4b, e5a, e5b, e6a, e6b⟩ := idx0 ⟨0, hN⟩
  intro a
  match a with
  | ⟨0, _⟩ => show win0_5.index ⟨0, hN⟩ (0 : Fin 2) * 5 ≤ (i 0).val ∧ (i 0).val < win0_5.index ⟨0, hN⟩ (0 : Fin 2) * 5 + 5; have h0 : (i 0).val < 5 := (i 0).isLt; omega
  | ⟨1, _⟩ => show win0_5.index ⟨0, hN⟩ (1 : Fin 2) * 1024 ≤ (i 1).val ∧ (i 1).val < win0_5.index ⟨0, hN⟩ (1 : Fin 2) * 1024 + 1024; have h1 : (i 1).val < 1024 := (i 1).isLt; omega

/-- Output 5's array after the region. -/
theorem final0_5 (c : Dev nD) : ((dat0 V c).arrAt 5 cfg0.N : S5x1024.Idx → Elt F .f32) = k0_pay2 (V c main_v1) (V c main_v2) (V c main_arg5) :=
  (dat0 V c).arrAt_eq_of_cover 5 (k0_pay2 (V c main_v1) (V c main_v2) (V c main_arg5)) (fun t _ => flushed0_5_eq V c t) cover0_5_all

/-- Reading output window 6's block at the point off a whole-array contents gives those contents. -/
theorem read0_6 (t : Fin cfg0.N) (G : S5x1024.Idx → Elt F .f32) :
    (((cfg0.win 6).blk t).view.read (Elt F) G : S5x1024.Idx → Elt F .f32) = G := by
  funext y
  show G (((cfg0.win 6).blk t).view.emb y) = G y
  refine congrArg G ?_
  obtain ⟨e0a, e0b, e1a, e1b, e2a, e2b, e3a, e3b, e4a, e4b, e5a, e5b, e6a, e6b⟩ := idx0 t
  funext a; apply Fin.ext
  match a with
  | ⟨0, _⟩ => show win0_6.index t (0 : Fin 2) * 5 + 1 * (y 0).val = (y 0).val; omega
  | ⟨1, _⟩ => show win0_6.index t (1 : Fin 2) * 1024 + 1 * (y 1).val = (y 1).val; omega

/-- What the point writes back through output window 6: the payload of the arrays it reads. -/
theorem flushed0_6_eq (c : Dev nD) (t : Fin cfg0.N) :
    (dat0 V c).flushed 6 t = ((cfg0.win 6).blk t).view.read (Elt F) (k0_pay3 (V c main_v2) (V c main_arg5) (V c main_arg2) (V c main_arg3)) := by
  show (cfg0.win 6).cut (grid0.coords t) ((dat0 V c).after 6 t) = _
  rw [after0_6]
  unfold out0_6
  rw [View.canon_unit_zero zero2]
  simp only [View.ld_unit_zero (S := S1024x1024) zero2, View.ld_unit_zero (S := S5x1024) zero2]
  rw [read0_6 t]
  show (k0_pay3 (iblk0 V c 1 t) (iblk0 V c 2 t) (iblk0 V c 3 t) (iblk0 V c 4 t) : S5x1024.Idx → Elt F .f32) = _
  rw [iblk0_1 V c t, iblk0_2 V c t, iblk0_3 V c t, iblk0_4 V c t]

/-- Every index of output 6's array is in the one point's block. -/
theorem cover0_6_all (i : S5x1024.Idx) : ∃ t : Fin cfg0.N, (cfg0.win 6).flush t = true ∧ i ∈ ((cfg0.win 6).blk t).view.set := by
  have hN : 0 < cfg0.N := by rw [show cfg0.N = grid0.N from rfl, N_0]; exact Nat.one_pos
  refine ⟨⟨0, hN⟩, flush0_6 _, ?_⟩
  show i ∈ ((View.whole main_v4_1).slice (win0_6.rect ⟨0, hN⟩)).set
  rw [View.set_slice_whole, Rect.mem_set_unit]
  obtain ⟨e0a, e0b, e1a, e1b, e2a, e2b, e3a, e3b, e4a, e4b, e5a, e5b, e6a, e6b⟩ := idx0 ⟨0, hN⟩
  intro a
  match a with
  | ⟨0, _⟩ => show win0_6.index ⟨0, hN⟩ (0 : Fin 2) * 5 ≤ (i 0).val ∧ (i 0).val < win0_6.index ⟨0, hN⟩ (0 : Fin 2) * 5 + 5; have h0 : (i 0).val < 5 := (i 0).isLt; omega
  | ⟨1, _⟩ => show win0_6.index ⟨0, hN⟩ (1 : Fin 2) * 1024 ≤ (i 1).val ∧ (i 1).val < win0_6.index ⟨0, hN⟩ (1 : Fin 2) * 1024 + 1024; have h1 : (i 1).val < 1024 := (i 1).isLt; omega

/-- Output 6's array after the region. -/
theorem final0_6 (c : Dev nD) : ((dat0 V c).arrAt 6 cfg0.N : S5x1024.Idx → Elt F .f32) = k0_pay3 (V c main_v2) (V c main_arg5) (V c main_arg2) (V c main_arg3) :=
  (dat0 V c).arrAt_eq_of_cover 6 (k0_pay3 (V c main_v2) (V c main_arg5) (V c main_arg2) (V c main_arg3)) (fun t _ => flushed0_6_eq V c t) cover0_6_all

end Cert.KernelIdeal.Val

end
-- ==== Proof.KMat.lean ====
/-
  The kernels' matrix products read at an entry.

  Both kernels multiply by the TRANSPOSE of their right operand: the contraction runs over axis 1 of both
  operands.  On the extended reals, into a zero accumulator, entry `(n, j)` of such a product is
  `∑ₖ l (n, k) · r (j, k)`: the sum over the one contracted axis, re-indexed by its one coordinate.
-/
import proofs.«141631_j16217796510025_1_alg».proof.Proof.Gen.KernelIdeal
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.ValueIdx

/-- A five-row left operand against the transposed square matrix. -/
theorem mm_rows5 (l : FVec Ideal S5x1024 .f32) (r : FVec Ideal S1024x1024 .f32) (n : Fin 5) (j : Fin 1024) :
    matmul dot_S5x1024_S1024x1024_S5x1024_1_1_0_0_n_n none l r (constant S5x1024 .f32 0x00000000#32) (ix2 n j)
      = ∑ k : Fin 1024, l (ix2 n k) * r (ix2 j k) := by
  show FloatOps.matmul dot_S5x1024_S1024x1024_S5x1024_1_1_0_0_n_n none l r (constant S5x1024 .f32 0x00000000#32) (ix2 n j) = _
  rw [Ideal.matmul_constant_zero_apply, ← Equiv.sum_comp (ValueIdx.contrEquiv1 dot_S5x1024_S1024x1024_S5x1024_1_1_0_0_n_n 1024 rfl rfl).symm]
  refine Finset.sum_congr rfl fun k _ => ?_
  have hk := ValueIdx.contrEquiv1_symm_val dot_S5x1024_S1024x1024_S5x1024_1_1_0_0_n_n 1024 rfl rfl k
  have el : dot_S5x1024_S1024x1024_S5x1024_1_1_0_0_n_n.lhsIdx (ix2 n j) ((ValueIdx.contrEquiv1 dot_S5x1024_S1024x1024_S5x1024_1_1_0_0_n_n 1024 rfl rfl).symm k) = ix2 n k := funext fun a => Fin.ext (by
    match a with
    | ⟨0, _⟩ =>
      show (dot_S5x1024_S1024x1024_S5x1024_1_1_0_0_n_n.lhsIdx (ix2 n j) _ 0).val = n.val
      unfold DotDims.lhsIdx
      rw [dif_neg (show ¬(0 : Fin S5x1024.rank) ∈ dot_S5x1024_S1024x1024_S5x1024_1_1_0_0_n_n.lhsBatch by decide), dif_pos (show (0 : Fin S5x1024.rank) ∈ dot_S5x1024_S1024x1024_S5x1024_1_1_0_0_n_n.lhsNonContracting by decide)]
      rfl
    | ⟨1, _⟩ => exact ((dot_S5x1024_S1024x1024_S5x1024_1_1_0_0_n_n.lhsIdx_val_of_single (cl := 1) rfl _ _).trans hk))
  have er : dot_S5x1024_S1024x1024_S5x1024_1_1_0_0_n_n.rhsIdx (ix2 n j) ((ValueIdx.contrEquiv1 dot_S5x1024_S1024x1024_S5x1024_1_1_0_0_n_n 1024 rfl rfl).symm k) = ix2 j k := funext fun a => Fin.ext (by
    match a with
    | ⟨0, _⟩ =>
      show (dot_S5x1024_S1024x1024_S5x1024_1_1_0_0_n_n.rhsIdx (ix2 n j) _ 0).val = j.val
      unfold DotDims.rhsIdx
      rw [dif_neg (show ¬(0 : Fin S1024x1024.rank) ∈ dot_S5x1024_S1024x1024_S5x1024_1_1_0_0_n_n.rhsBatch by decide), dif_pos (show (0 : Fin S1024x1024.rank) ∈ dot_S5x1024_S1024x1024_S5x1024_1_1_0_0_n_n.rhsNonContracting by decide)]
      rfl
    | ⟨1, _⟩ => exact ((dot_S5x1024_S1024x1024_S5x1024_1_1_0_0_n_n.rhsIdx_val_of_single (cr := 1) rfl _ _).trans hk))
  rw [el, er]

/-- A tile of 256 rows against the transposed square matrix. -/
theorem mm_rows256 (l : FVec Ideal S256x1024 .f32) (r : FVec Ideal S1024x1024 .f32) (n : Fin 256) (j : Fin 1024) :
    matmul dot_S256x1024_S1024x1024_S256x1024_1_1_0_0_n_n none l r (constant S256x1024 .f32 0x00000000#32) (ix2 n j)
      = ∑ k : Fin 1024, l (ix2 n k) * r (ix2 j k) := by
  show FloatOps.matmul dot_S256x1024_S1024x1024_S256x1024_1_1_0_0_n_n none l r (constant S256x1024 .f32 0x00000000#32) (ix2 n j) = _
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 n j) ((ValueIdx.contrEquiv1 dot_S256x1024_S1024x1024_S256x1024_1_1_0_0_n_n 1024 rfl rfl).symm k) = ix2 n k := funext fun a => Fin.ext (by
    match a with
    | ⟨0, _⟩ =>
      show (dot_S256x1024_S1024x1024_S256x1024_1_1_0_0_n_n.lhsIdx (ix2 n j) _ 0).val = n.val
      unfold DotDims.lhsIdx
      rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
      rfl
    | ⟨1, _⟩ => exact ((dot_S256x1024_S1024x1024_S256x1024_1_1_0_0_n_n.lhsIdx_val_of_single (cl := 1) rfl _ _).trans hk))
  have er : dot_S256x1024_S1024x1024_S256x1024_1_1_0_0_n_n.rhsIdx (ix2 n j) ((ValueIdx.contrEquiv1 dot_S256x1024_S1024x1024_S256x1024_1_1_0_0_n_n 1024 rfl rfl).symm k) = ix2 j k := funext fun a => Fin.ext (by
    match a with
    | ⟨0, _⟩ =>
      show (dot_S256x1024_S1024x1024_S256x1024_1_1_0_0_n_n.rhsIdx (ix2 n j) _ 0).val = j.val
      unfold DotDims.rhsIdx
      rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
      rfl
    | ⟨1, _⟩ => exact ((dot_S256x1024_S1024x1024_S256x1024_1_1_0_0_n_n.rhsIdx_val_of_single (cr := 1) rfl _ _).trans hk))
  rw [el, er]

end Cert.KernelIdeal.Val

end
-- ==== Proof.Spec.lean ====
/-
  The specification: what the recurrent memory-cell update computes, index by index, on the extended reals.

  Arguments: the token features `a0 : [1024, 128, 1024]`, the flat block states `a1 : [5120]` (five blocks of
  1024), the three square weight matrices `a2` (on the states), `a3` (on the keys), `a4` (on the encoding),
  the block keys `a5 : [5, 1024]` and the slopes `a6 : [1024]`.

  With `enc b k = a0 (b, 0, k)` (the first token of row `b`) and `hid n k = a1 (1024·n + k)` (block `n` of the
  states):
    gate n j = σ (∑ₖ (hid n k + a5 (n, k)) · enc j k),            σ x = 1 / (1 + e⁻ˣ),
    mix  n j = ∑ₖ hid n k · a2 (j, k)  +  ∑ₖ a5 (n, k) · a3 (j, k),
    proj b j = ∑ₖ enc b k · a4 (j, k),
  and entry `(1024·n + b, j)` of the result is `cell (hid n j) (gate n j) (mix n j) (proj b j) (a6 j)`, where
  `cell h g u e a` takes `p = u + e`, keeps `p` where `p ≥ 0` and `a · p` elsewhere (a leaky rectifier with a slope
  per column), forms `o = h + g · that`, replaces an exact zero of `o` by the constant whose binary word is
  0x3DCCCCCD, and divides the outcome by its absolute value: a sign.

  The gate's index `j` runs over the SAME 1024 as the row index `b` of the encoding (the two extents coincide):
  column `j` of the gate is made from row `j` of the encoding.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SFeat : Shape := ⟨3, ![1024, 128, 1024]⟩
abbrev SFlat : Shape := ⟨1, ![5120]⟩
abbrev SSq : Shape := ⟨2, ![1024, 1024]⟩
abbrev SBlk : Shape := ⟨2, ![5, 1024]⟩
abbrev SVec : Shape := ⟨1, ![1024]⟩
abbrev SOut : Shape := ⟨2, ![5120, 1024]⟩

/-- The update of one entry from the five numbers it depends on: leaky rectifier of `u + e` with slope `a`,
    gated by `g` and added to `h`; an exact zero replaced by a fixed nonzero constant; then the sign, as the
    quotient by the absolute value. -/
def cell (h g u e a : Ideal .f32) : Ideal .f32 :=
  let p : Ideal .f32 := FloatOps.addf u e
  let r : Ideal .f32 := Scalar.select (FloatOps.cmpf .oge p (Ideal.ofBits .f32 0x00000000#32)) p (FloatOps.mulf a p)
  let o : Ideal .f32 := FloatOps.addf h (FloatOps.mulf g r)
  let o' : Ideal .f32 := Scalar.select (FloatOps.cmpf .oeq o (Ideal.ofBits .f32 0x00000000#32)) (Ideal.ofBits .f32 0x3DCCCCCD#32) o
  FloatOps.divf o' (FloatOps.absf o')

/-- The first token of row `b` of the features. -/
def enc (a0 : SFeat.Idx → Ideal .f32) (b k : Fin 1024) : Ideal .f32 := a0 (ix3 b (0 : Fin 128) k)

theorem flat_lt (n : Fin 5) (k : Fin 1024) : n.val * 1024 + k.val < 5120 := by
  have := n.isLt; have := k.isLt; omega

/-- Block `n` of the flat states. -/
def hid (a1 : SFlat.Idx → Ideal .f32) (n : Fin 5) (k : Fin 1024) : Ideal .f32 := a1 (ix1 ⟨n.val * 1024 + k.val, flat_lt n k⟩)

/-- The gate of block `n` at column `j`: the logistic function of the inner product of the block's state plus key
    with row `j` of the encoding. -/
def gate (a0 : SFeat.Idx → Ideal .f32) (a1 : SFlat.Idx → Ideal .f32) (a5 : SBlk.Idx → Ideal .f32) (n : Fin 5) (j : Fin 1024) : Ideal .f32 :=
  Ideal.logistic (∑ k : Fin 1024, (hid a1 n k + a5 (ix2 n k)) * enc a0 j k)

/-- The block's own contribution to the candidate: its state through `a2` plus its key through `a3`. -/
def mix (a1 : SFlat.Idx → Ideal .f32) (a2 a3 : SSq.Idx → Ideal .f32) (a5 : SBlk.Idx → Ideal .f32) (n : Fin 5) (j : Fin 1024) : Ideal .f32 :=
  (∑ k : Fin 1024, hid a1 n k * a2 (ix2 j k)) + (∑ k : Fin 1024, a5 (ix2 n k) * a3 (ix2 j k))

/-- The encoding's contribution to the candidate: row `b` of the encoding through `a4`. -/
def proj (a0 : SFeat.Idx → Ideal .f32) (a4 : SSq.Idx → Ideal .f32) (b j : Fin 1024) : Ideal .f32 :=
  ∑ k : Fin 1024, enc a0 b k * a4 (ix2 j k)

/-- The new state of block `n`, row `b`, column `j`. -/
def upd (a0 : SFeat.Idx → Ideal .f32) (a1 : SFlat.Idx → Ideal .f32) (a2 a3 a4 : SSq.Idx → Ideal .f32) (a5 : SBlk.Idx → Ideal .f32)
    (a6 : SVec.Idx → Ideal .f32) (n : Fin 5) (b j : Fin 1024) : Ideal .f32 :=
  cell (hid a1 n j) (gate a0 a1 a5 n j) (mix a1 a2 a3 a5 n j) (proj a0 a4 b j) (a6 (ix1 j))

theorem row_div_lt (r : Fin 5120) : r.val / 1024 < 5 := by have := r.isLt; omega
theorem row_mod_lt (r : Fin 5120) : r.val % 1024 < 1024 := Nat.mod_lt _ (by decide)

/-- The result: the five blocks' new states stacked along the rows, row `1024·n + b` holding block `n`, row `b`. -/
def result (a0 : SFeat.Idx → Ideal .f32) (a1 : SFlat.Idx → Ideal .f32) (a2 a3 a4 : SSq.Idx → Ideal .f32) (a5 : SBlk.Idx → Ideal .f32)
    (a6 : SVec.Idx → Ideal .f32) : SOut.Idx → Ideal .f32 :=
  fun i => upd a0 a1 a2 a3 a4 a5 a6 ⟨(i 0).val / 1024, row_div_lt (i 0)⟩ ⟨(i 0).val % 1024, row_mod_lt (i 0)⟩ (i 1)

end Cert.Spec

end
-- ==== Proof.KPay.lean ====
/-
  The kernels' arithmetic read at an entry, on the extended reals.

  First kernel.  Its two stores' payloads, of the blocks it loads (the encoding `x0`, the block states `x1`, the
  keys `x2`, the two weight matrices `x3`, `x4`): at `(n, j)` the first is the logistic function of
  `∑ₖ (x1 (n, k) + x2 (n, k)) · x0 (j, k)`, the second `∑ₖ x1 (n, k) · x3 (j, k) + ∑ₖ x2 (n, k) · x4 (j, k)`.

  Second kernel.  Its body is the same five operations chains, one per block `n = 0 … 4`, each over row `n` of the
  three [5, 1024] operands spread over the tile's 256 rows, the tile's product with the transposed weight matrix,
  and the one row of slopes spread likewise.  One such chain, read at `(0, p, q)` of the [1, 256, 1024] slab it
  stores, is `cell` of the three operands at `(n, q)`, the product at `(p, q)` and the slope at `(0, q)`
  (`iter_apply`); each of the five stored slabs IS that chain at its `n` (by unfolding), whichever way the printed
  body was cut into payloads.
-/
import proofs.«141631_j16217796510025_1_alg».proof.Proof.Gen.KernelIdeal.Skeleton
import proofs.«141631_j16217796510025_1_alg».proof.Proof.KMat
import proofs.«141631_j16217796510025_1_alg».proof.Proof.Spec
import Idealize.ShloMosaic.Lib.Pipeline.Value
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.ValueIdx Cert.Spec

/-! ## The first kernel's two payloads -/

theorem gate_apply (x0 : FVec Ideal S1024x1024 .f32) (x1 x2 : FVec Ideal S5x1024 .f32) (n : Fin 5) (j : Fin 1024) :
    k0_pay2 (F := Ideal) x0 x1 x2 (ix2 n j) = Ideal.logistic (∑ k : Fin 1024, (x1 (ix2 n k) + x2 (ix2 n k)) * x0 (ix2 j k)) := by
  unfold k0_pay2 k0_pay1
  simp only [shapeCast_self]
  show Ideal.logistic (matmul (F := Ideal) dot_S5x1024_S1024x1024_S5x1024_1_1_0_0_n_n none (addf x1 x2) x0 (constant S5x1024 .f32 0x00000000#32) (ix2 n j)) = _
  rw [mm_rows5]
  rfl

theorem mix_apply (x1 x2 : FVec Ideal S5x1024 .f32) (x3 x4 : FVec Ideal S1024x1024 .f32) (n : Fin 5) (j : Fin 1024) :
    k0_pay3 (F := Ideal) x1 x2 x3 x4 (ix2 n j) = (∑ k : Fin 1024, x1 (ix2 n k) * x3 (ix2 j k)) + (∑ k : Fin 1024, x2 (ix2 n k) * x4 (ix2 j k)) := by
  unfold k0_pay3 k0_pay1
  simp only [shapeCast_self]
  show matmul (F := Ideal) dot_S5x1024_S1024x1024_S5x1024_1_1_0_0_n_n none x1 x3 (constant S5x1024 .f32 0x00000000#32) (ix2 n j)
      + matmul (F := Ideal) dot_S5x1024_S1024x1024_S5x1024_1_1_0_0_n_n none x2 x4 (constant S5x1024 .f32 0x00000000#32) (ix2 n j) = _
  rw [mm_rows5, mm_rows5]

/-! ## One iteration of the second kernel's unrolled loop -/

/-- Row `o` of a [5, 1024] operand spread over 256 rows reads, at `(p, q)`, the operand at `(o, q)`. -/
theorem row_spread (o : Nat) (v : FVec Ideal S5x1024 .f32) (hs : S5x1024.Slices ![o, 0] S1x1024) (hb : S1x1024.Broadcasts S256x1024)
    (n : Fin 5) (hn : n.val = o) (p : Fin 256) (q : Fin 1024) :
    broadcastTo S256x1024 (extractStridedSlice S1x1024 ![o, 0] v hs) hb (ix2 p q) = v (ix2 n q) := by
  rw [broadcastTo_1b_ab_apply]
  exact slice2_axis0_apply o v hs (0 : Fin 1) q n (by rw [hn]; rfl)

/-- The chain of one iteration, on the vectors it reads: `e` the tile's product, `h g u` the three [5, 1024]
    operands of which it takes row `o`, `a` the row of slopes, `z` the zero it compares the pre-activation with. -/
def iter (o : Nat) (hs : S5x1024.Slices ![o, 0] S1x1024) (e : FVec Ideal S256x1024 .f32) (h g u : FVec Ideal S5x1024 .f32)
    (a : FVec Ideal S1x1024 .f32) (z : Ideal .f32) : FVec Ideal S1x256x1024 .f32 :=
  let pre : FVec Ideal S256x1024 .f32 := addf (broadcastTo S256x1024 (extractStridedSlice S1x1024 ![o, 0] u hs) broadcasts_S1x1024_S256x1024) e
  let r : FVec Ideal S256x1024 .f32 := select (cmpf .oge pre (broadcast S256x1024 z)) pre (mulf (broadcastTo S256x1024 a broadcasts_S1x1024_S256x1024) pre)
  let out : FVec Ideal S256x1024 .f32 := addf (broadcastTo S256x1024 (extractStridedSlice S1x1024 ![o, 0] h hs) broadcasts_S1x1024_S256x1024)
    (mulf (broadcastTo S256x1024 (extractStridedSlice S1x1024 ![o, 0] g hs) broadcasts_S1x1024_S256x1024) r)
  let out' : FVec Ideal S256x1024 .f32 := select (cmpf .oeq out (broadcast S256x1024 (Scalar.ofBits .f32 0x00000000#32)))
    (broadcast S256x1024 (Scalar.ofBits .f32 0x3DCCCCCD#32)) out
  shapeCast S1x256x1024 (divf out' (absf out')) shapeCasts_S256x1024_S1x256x1024

theorem iter_apply (o : Nat) (hs : S5x1024.Slices ![o, 0] S1x1024) (e : FVec Ideal S256x1024 .f32) (h g u : FVec Ideal S5x1024 .f32)
    (a : FVec Ideal S1x1024 .f32) (n : Fin 5) (hn : n.val = o) (p : Fin 256) (q : Fin 1024) :
    iter o hs e h g u a (Scalar.ofBits .f32 0x00000000#32) (ix3 (0 : Fin 1) p q)
      = cell (h (ix2 n q)) (g (ix2 n q)) (u (ix2 n q)) (e (ix2 p q)) (a (ix2 (0 : Fin 1) q)) := by
  unfold iter
  refine (shapeCast_ab_1ab_apply _ _ (0 : Fin 1) p q).trans ?_
  show cell (broadcastTo S256x1024 (extractStridedSlice S1x1024 ![o, 0] h hs) broadcasts_S1x1024_S256x1024 (ix2 p q))
      (broadcastTo S256x1024 (extractStridedSlice S1x1024 ![o, 0] g hs) broadcasts_S1x1024_S256x1024 (ix2 p q))
      (broadcastTo S256x1024 (extractStridedSlice S1x1024 ![o, 0] u hs) broadcasts_S1x1024_S256x1024 (ix2 p q))
      (e (ix2 p q))
      (broadcastTo S256x1024 a broadcasts_S1x1024_S256x1024 (ix2 p q)) = _
  rw [row_spread o h hs _ n hn p q, row_spread o g hs _ n hn p q, row_spread o u hs _ n hn p q, broadcastTo_1b_ab_apply]

/-! ## The five stored slabs are that iteration at `n = 0 … 4` -/

/-- The tile's product with the transposed weight matrix. -/
theorem proj_apply (y0 : FVec Ideal S256x1024 .f32) (y1 : FVec Ideal S1024x1024 .f32) (p : Fin 256) (q : Fin 1024) :
    k1_pay3 (F := Ideal) y0 y1 (ix2 p q) = ∑ k : Fin 1024, y0 (ix2 p k) * y1 (ix2 q k) := by
  unfold k1_pay3
  simp only [shapeCast_self]
  exact mm_rows256 y0 y1 p q

variable (y0 : FVec Ideal S256x1024 .f32) (y1 : FVec Ideal S1024x1024 .f32) (y2 y3 y4 : FVec Ideal S5x1024 .f32) (y5 : FVec Ideal S1x1024 .f32)

theorem slab0 : k1_pay8 (F := Ideal) y0 y1 y2 y3 y4 y5 = iter 0 slices_S5x1024_o0_0_S1x1024 (k1_pay3 y0 y1) y2 y3 y4 y5 (Scalar.ofBits .f32 0x00000000#32) := by
  unfold k1_pay8 k1_pay6 k1_pay7 k1_pay4 k1_pay5 iter
  simp only [shapeCast_self]
theorem slab1 : k1_pay10 (F := Ideal) (k1_pay4 y2) (k1_pay5 y3) (k1_pay7 y5) (k1_pay9 y0 y1 y4) (Scalar.ofBits .f32 0x00000000#32)
    = iter 1 slices_S5x1024_o1_0_S1x1024 (k1_pay3 y0 y1) y2 y3 y4 y5 (Scalar.ofBits .f32 0x00000000#32) := by
  unfold k1_pay10 k1_pay9 k1_pay6 k1_pay7 k1_pay4 k1_pay5 iter
  simp only [shapeCast_self]
theorem slab2 : k1_pay11 (F := Ideal) (k1_pay3 y0 y1) (k1_pay4 y2) (k1_pay5 y3) (k1_pay6 y4) (k1_pay7 y5)
    = iter 2 slices_S5x1024_o2_0_S1x1024 (k1_pay3 y0 y1) y2 y3 y4 y5 (Scalar.ofBits .f32 0x00000000#32) := by
  unfold k1_pay11 k1_pay6 k1_pay7 k1_pay4 k1_pay5 iter
  simp only [shapeCast_self]
theorem slab3 : k1_pay1 (F := Ideal) (k1_pay4 y2) (k1_pay5 y3) (k1_pay7 y5) (k1_pay12 (k1_pay3 y0 y1) (k1_pay6 y4)) (Scalar.ofBits .f32 0x00000000#32)
    = iter 3 slices_S5x1024_o3_0_S1x1024 (k1_pay3 y0 y1) y2 y3 y4 y5 (Scalar.ofBits .f32 0x00000000#32) := by
  unfold k1_pay1 k1_pay12 k1_pay6 k1_pay7 k1_pay4 k1_pay5 iter
  simp only [shapeCast_self]
theorem slab4 : k1_pay2 (F := Ideal) (k1_pay3 y0 y1) (k1_pay4 y2) (k1_pay5 y3) (k1_pay6 y4) (k1_pay7 y5)
    = iter 4 slices_S5x1024_o4_0_S1x1024 (k1_pay3 y0 y1) y2 y3 y4 y5 (Scalar.ofBits .f32 0x00000000#32) := by
  unfold k1_pay2 k1_pay6 k1_pay7 k1_pay4 k1_pay5 iter
  simp only [shapeCast_self]

end Cert.KernelIdeal.Val

end
-- ==== Proof.KReg1.lean ====
/-
  The second kernel region, read as values on the extended reals.

  Its grid has four points.  Point `t` stages rows `256·t … 256·t + 255` of the encoding, the whole of the weight
  matrix, of the block states, of the two arrays the first region wrote and of the row of slopes, and writes back
  the slab `[5, 256·t … 256·t + 255, 1024]` of its output.  The body's five stores tile the staged [5, 256, 1024]
  buffer by its first axis, and each is the SAME function of the buffer's index — `cell` of the three [5, 1024]
  operands at `(n, q)`, the staged rows' product with the transposed weights at `(p, q)`, the slope at `q` — so the
  buffer holds that function; read through the block's placement (row `p` of the tile is row `256·t + p` of the
  array) it is the block of ONE function of the whole arrays, `newStates`.  The four slabs cover the output.
-/
import proofs.«141631_j16217796510025_1_alg».proof.Proof.Gen.KernelIdeal.Frame
import proofs.«141631_j16217796510025_1_alg».proof.Proof.KPay
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx Cert.Spec

variable (V : (c : Dev nD) → (b : Ref sig .tc) → Buf (Elt Ideal) ((c : Thread nD τ).loc b))

/-- Entry `(n, b, q)` of the region's output from the six whole arrays it reads. -/
def newStatesAt (X0 X1 : FVec Ideal S1024x1024 .f32) (X2 X3 X4 : FVec Ideal S5x1024 .f32) (X5 : FVec Ideal S1x1024 .f32)
    (n : Fin 5) (b q : Fin 1024) : Ideal .f32 :=
  cell (X2 (ix2 n q)) (X3 (ix2 n q)) (X4 (ix2 n q)) (∑ k : Fin 1024, X0 (ix2 b k) * X1 (ix2 q k)) (X5 (ix2 (0 : Fin 1) q))

/-- The region's output array as one function of the six arrays it reads. -/
def newStates (X0 X1 : FVec Ideal S1024x1024 .f32) (X2 X3 X4 : FVec Ideal S5x1024 .f32) (X5 : FVec Ideal S1x1024 .f32) :
    FVec Ideal S5x1024x1024 .f32 := fun i => newStatesAt X0 X1 X2 X3 X4 X5 (i 0) (i 1) (i 2)

/-- The block indices at point `t`: the encoding's and the output's row-block index is `t`, every other is 0. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = 0 ∧ win1_6.index t (1 : Fin 3) = t.val ∧ win1_6.index t (2 : Fin 3) = 0 :=
  (by decide +kernel : ∀ t : Fin grid1.N, _)

/-- Row `p` of the encoding's tile at point `t` is row `256·t + p` of the encoding. -/
theorem iblk1_0 (c : Dev nD) (t : Fin cfg1.N) (p : Fin 256) (k : Fin 1024) (b : Fin 1024) (hb : b.val = t.val * 256 + p.val) :
    (iblk1 V c 0 t : S256x1024.Idx → Ideal .f32) (ix2 p k) = V c main_v1 (ix2 b k) := by
  show V c main_v1 (((cfg1.win 0).blk t).view.emb (ix2 p k)) = V c main_v1 (ix2 b k)
  refine congrArg (V c main_v1) (funext fun a => Fin.ext ?_)
  obtain ⟨f0a, f0b, f1a, f1b, f2a, f2b, f3a, f3b, f4a, f4b, f5a, f5b, f6a, f6b, f6c⟩ := idx1 t
  match a with
  | ⟨0, _⟩ => show win1_0.index t (0 : Fin 2) * 256 + 1 * p.val = b.val; omega
  | ⟨1, _⟩ => show win1_0.index t (1 : Fin 2) * 1024 + 1 * k.val = k.val; omega

/-- Input window 1's block at every point is its whole array. -/
theorem iblk1_1 (c : Dev nD) (t : Fin cfg1.N) : (iblk1 V c 1 t : S1024x1024.Idx → Ideal .f32) = V c main_arg4 := by
  funext y
  show V c main_arg4 (((cfg1.win 1).blk t).view.emb y) = V c main_arg4 y
  refine congrArg (V c main_arg4) (funext fun a => Fin.ext ?_)
  obtain ⟨f0a, f0b, f1a, f1b, f2a, f2b, f3a, f3b, f4a, f4b, f5a, f5b, f6a, f6b, f6c⟩ := idx1 t
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- Input window 2's block at every point is its whole array. -/
theorem iblk1_2 (c : Dev nD) (t : Fin cfg1.N) : (iblk1 V c 2 t : S5x1024.Idx → Ideal .f32) = V c main_v2 := by
  funext y
  show V c main_v2 (((cfg1.win 2).blk t).view.emb y) = V c main_v2 y
  refine congrArg (V c main_v2) (funext fun a => Fin.ext ?_)
  obtain ⟨f0a, f0b, f1a, f1b, f2a, f2b, f3a, f3b, f4a, f4b, f5a, f5b, f6a, f6b, f6c⟩ := idx1 t
  match a with
  | ⟨0, _⟩ => show win1_2.index t (0 : Fin 2) * 5 + 1 * (y 0).val = (y 0).val; omega
  | ⟨1, _⟩ => show win1_2.index t (1 : Fin 2) * 1024 + 1 * (y 1).val = (y 1).val; omega

/-- Input window 3's block at every point is its whole array. -/
theorem iblk1_3 (c : Dev nD) (t : Fin cfg1.N) : (iblk1 V c 3 t : S5x1024.Idx → Ideal .f32) = V c main_v4_0 := by
  funext y
  show V c main_v4_0 (((cfg1.win 3).blk t).view.emb y) = V c main_v4_0 y
  refine congrArg (V c main_v4_0) (funext fun a => Fin.ext ?_)
  obtain ⟨f0a, f0b, f1a, f1b, f2a, f2b, f3a, f3b, f4a, f4b, f5a, f5b, f6a, f6b, f6c⟩ := idx1 t
  match a with
  | ⟨0, _⟩ => show win1_3.index t (0 : Fin 2) * 5 + 1 * (y 0).val = (y 0).val; omega
  | ⟨1, _⟩ => show win1_3.index t (1 : Fin 2) * 1024 + 1 * (y 1).val = (y 1).val; omega

/-- Input window 4's block at every point is its whole array. -/
theorem iblk1_4 (c : Dev nD) (t : Fin cfg1.N) : (iblk1 V c 4 t : S5x1024.Idx → Ideal .f32) = V c main_v4_1 := by
  funext y
  show V c main_v4_1 (((cfg1.win 4).blk t).view.emb y) = V c main_v4_1 y
  refine congrArg (V c main_v4_1) (funext fun a => Fin.ext ?_)
  obtain ⟨f0a, f0b, f1a, f1b, f2a, f2b, f3a, f3b, f4a, f4b, f5a, f5b, f6a, f6b, f6c⟩ := idx1 t
  match a with
  | ⟨0, _⟩ => show win1_4.index t (0 : Fin 2) * 5 + 1 * (y 0).val = (y 0).val; omega
  | ⟨1, _⟩ => show win1_4.index t (1 : Fin 2) * 1024 + 1 * (y 1).val = (y 1).val; omega

/-- Input window 5's block at every point is its whole array. -/
theorem iblk1_5 (c : Dev nD) (t : Fin cfg1.N) : (iblk1 V c 5 t : S1x1024.Idx → Ideal .f32) = V c main_v3 := by
  funext y
  show V c main_v3 (((cfg1.win 5).blk t).view.emb y) = V c main_v3 y
  refine congrArg (V c main_v3) (funext fun a => Fin.ext ?_)
  obtain ⟨f0a, f0b, f1a, f1b, f2a, f2b, f3a, f3b, f4a, f4b, f5a, f5b, f6a, f6b, f6c⟩ := idx1 t
  match a with
  | ⟨0, _⟩ => show win1_5.index t (0 : Fin 2) * 1 + 1 * (y 0).val = (y 0).val; omega
  | ⟨1, _⟩ => show win1_5.index t (1 : Fin 2) * 1024 + 1 * (y 1).val = (y 1).val; omega

theorem zeros2 : (![0, 0] : Fin 2 → Nat) = fun _ => 0 := funext fun a => by fin_cases a <;> rfl

/-- The staged output buffer after the body, as ONE function of its index: the five slabs' common form. -/
def tileOut (Y0 : FVec Ideal S256x1024 .f32) (X1 : FVec Ideal S1024x1024 .f32) (X2 X3 X4 : FVec Ideal S5x1024 .f32) (X5 : FVec Ideal S1x1024 .f32) :
    FVec Ideal S5x256x1024 .f32 := fun y =>
  cell (X2 (ix2 (y 0) (y 2))) (X3 (ix2 (y 0) (y 2))) (X4 (ix2 (y 0) (y 2))) (k1_pay3 (F := Ideal) Y0 X1 (ix2 (y 1) (y 2))) (X5 (ix2 (0 : Fin 1) (y 2)))

/-- One slab: the iteration at block `n`, stored at offset `n` of the first axis, is `tileOut` there. -/
theorem slab_tile (o : Nat) (hs : S5x1024.Slices ![o, 0] S1x1024) (inb : ∀ a, (![o, 0, 0] : Fin 3 → Nat) a + S1x256x1024.size a ≤ S5x256x1024.size a)
    (n : Fin 5) (hn : n.val = o)
    (Y0 : FVec Ideal S256x1024 .f32) (X1 : FVec Ideal S1024x1024 .f32) (X2 X3 X4 : FVec Ideal S5x1024 .f32) (X5 : FVec Ideal S1x1024 .f32)
    (x : S1x256x1024.Idx) :
    iter o hs (k1_pay3 (F := Ideal) Y0 X1) X2 X3 X4 X5 (Scalar.ofBits .f32 0x00000000#32) x
      = tileOut Y0 X1 X2 X3 X4 X5 ((Rect.unit (s := S5x256x1024) ![o, 0, 0] S1x256x1024.size inb).emb x) := by
  obtain ⟨u, p, q, rfl⟩ : ∃ (u : Fin 1) (p : Fin 256) (q : Fin 1024), x = ix3 u p q := ⟨x 0, x 1, x 2, eq_ix3 x⟩
  obtain rfl : u = 0 := Subsingleton.elim _ _
  rw [iter_apply o hs _ X2 X3 X4 X5 n hn p q]
  have he : (Rect.unit (s := S5x256x1024) ![o, 0, 0] S1x256x1024.size inb).emb (ix3 (0 : Fin 1) p q) = ix3 n p q :=
    funext fun a => Fin.ext (by
      match a with
      | ⟨0, _⟩ => show o + 1 * 0 = n.val; omega
      | ⟨1, _⟩ => show 0 + 1 * p.val = p.val; omega
      | ⟨2, _⟩ => show 0 + 1 * q.val = q.val; omega)
  rw [he]
  rfl

/-- What the body leaves in the staged output buffer is `tileOut` of the staged blocks. -/
theorem out1_6_eq (Y0 : FVec Ideal S256x1024 .f32) (X1 : FVec Ideal S1024x1024 .f32) (X2 X3 X4 : FVec Ideal S5x1024 .f32) (X5 : FVec Ideal S1x1024 .f32) :
    out1_6 (F := Ideal) Y0 X1 X2 X3 X4 X5 = tileOut Y0 X1 X2 X3 X4 X5 := by
  unfold out1_6
  simp only [View.ld_unit_zero (S := S256x1024) zeros2, View.ld_unit_zero (S := S1024x1024) zeros2, View.ld_unit_zero (S := S5x1024) zeros2,
    View.ld_unit_zero (S := S1x1024) zeros2]
  rw [slab0, slab1, slab2, slab3, slab4]
  funext y
  refine View.canon_apply_of_pieces (Val := Elt Ideal) (e := EltTy.f32) (tileOut Y0 X1 X2 X3 X4 X5) _ ?_ y (cover1_6 _ _ _ _ _ y)
  intro pc hpc x
  simp only [List.mem_cons, List.not_mem_nil, or_false] at hpc
  rcases hpc with rfl | rfl | rfl | rfl | rfl
  · exact slab_tile 4 slices_S5x1024_o4_0_S1x1024 inb_S5x256x1024_S1x256x1024_4_0_0 4 rfl Y0 X1 X2 X3 X4 X5 x
  · exact slab_tile 3 slices_S5x1024_o3_0_S1x1024 inb_S5x256x1024_S1x256x1024_3_0_0 3 rfl Y0 X1 X2 X3 X4 X5 x
  · exact slab_tile 2 slices_S5x1024_o2_0_S1x1024 inb_S5x256x1024_S1x256x1024_2_0_0 2 rfl Y0 X1 X2 X3 X4 X5 x
  · exact slab_tile 1 slices_S5x1024_o1_0_S1x1024 inb_S5x256x1024_S1x256x1024_1_0_0 1 rfl Y0 X1 X2 X3 X4 X5 x
  · exact slab_tile 0 slices_S5x1024_o0_0_S1x1024 inb_S5x256x1024_S1x256x1024_0_0_0 0 rfl Y0 X1 X2 X3 X4 X5 x

/-- The staged buffer's function, when the staged tile is rows 256·t … of the encoding, is the array's function at
    those rows. -/
theorem tile_eq (X0 X1 : FVec Ideal S1024x1024 .f32) (X2 X3 X4 : FVec Ideal S5x1024 .f32) (X5 : FVec Ideal S1x1024 .f32)
    (Y0 : FVec Ideal S256x1024 .f32) (t : Nat) (ht : t < 4)
    (hY : ∀ (p : Fin 256) (k : Fin 1024), Y0 (ix2 p k) = X0 (ix2 (⟨t * 256 + p.val, by have := p.isLt; omega⟩ : Fin 1024) k))
    (n : Fin 5) (p : Fin 256) (q : Fin 1024) :
    tileOut Y0 X1 X2 X3 X4 X5 (ix3 n p q)
      = newStates X0 X1 X2 X3 X4 X5 (ix3 n (⟨t * 256 + p.val, by have := p.isLt; omega⟩ : Fin 1024) q) := by
  show cell _ _ _ (k1_pay3 (F := Ideal) Y0 X1 (ix2 p q)) _
    = cell _ _ _ (∑ k : Fin 1024, X0 (ix2 (⟨t * 256 + p.val, by have := p.isLt; omega⟩ : Fin 1024) k) * X1 (ix2 q k)) _
  rw [proj_apply]
  simp only [hY]

/-- What point `t` writes back is its block of `newStates` of the arrays the region finds. -/
theorem flushed1_6_eq (c : Dev nD) (t : Fin cfg1.N) :
    (dat1 V c).flushed 6 t = ((cfg1.win 6).blk t).view.read (Elt Ideal)
      (newStates (V c main_v1) (V c main_arg4) (V c main_v2) (V c main_v4_0) (V c main_v4_1) (V c main_v3)) := by
  show (cfg1.win 6).cut (grid1.coords t) ((dat1 V c).after 6 t) = _
  rw [after1_6, out1_6_eq, iblk1_1 V c t, iblk1_2 V c t, iblk1_3 V c t, iblk1_4 V c t, iblk1_5 V c t]
  funext y
  obtain ⟨n, p, q, rfl⟩ : ∃ (n : Fin 5) (p : Fin 256) (q : Fin 1024), y = ix3 n p q := ⟨y 0, y 1, y 2, eq_ix3 y⟩
  obtain ⟨f0a, f0b, f1a, f1b, f2a, f2b, f3a, f3b, f4a, f4b, f5a, f5b, f6a, f6b, f6c⟩ := idx1 t
  have hp := p.isLt
  have ht : t.val < 4 := lt_of_lt_of_eq t.isLt N_1
  have hemb : ((cfg1.win 6).blk t).view.emb (ix3 n p q) = ix3 n (⟨t.val * 256 + p.val, by omega⟩ : Fin 1024) q :=
    funext fun a => Fin.ext (by
      match a with
      | ⟨0, _⟩ => show win1_6.index t (0 : Fin 3) * 5 + 1 * n.val = n.val; omega
      | ⟨1, _⟩ => show win1_6.index t (1 : Fin 3) * 256 + 1 * p.val = t.val * 256 + p.val; omega
      | ⟨2, _⟩ => show win1_6.index t (2 : Fin 3) * 1024 + 1 * q.val = q.val; omega)
  show tileOut (iblk1 V c 0 t) (V c main_arg4) (V c main_v2) (V c main_v4_0) (V c main_v4_1) (V c main_v3) (ix3 n p q)
    = newStates (V c main_v1) (V c main_arg4) (V c main_v2) (V c main_v4_0) (V c main_v4_1) (V c main_v3) (((cfg1.win 6).blk t).view.emb (ix3 n p q))
  rw [hemb]
  exact tile_eq (V c main_v1) (V c main_arg4) (V c main_v2) (V c main_v4_0) (V c main_v4_1) (V c main_v3) (iblk1 V c 0 t) t.val ht
    (fun p k => iblk1_0 V c t p k _ rfl) n p q

/-- An index of the output array is in point `t`'s block iff its coordinates are in the block's ranges. -/
theorem mem_blk1_6 (t : Fin cfg1.N) (i : S5x1024x1024.Idx) :
    i ∈ ((cfg1.win 6).blk t).view.set ↔ ∀ a : Fin 3, win1_6.index t a * S5x256x1024.size a ≤ (i a).val ∧ (i a).val < win1_6.index t a * S5x256x1024.size a + S5x256x1024.size a := by
  show i ∈ ((View.whole main_v5).slice (win1_6.rect t)).set ↔ _
  rw [View.set_slice_whole, Rect.mem_set_unit]
  exact Iff.rfl

/-- The four slabs cover the output: row `b` is in the slab of point `b / 256`. -/
theorem cover1_6_all (i : S5x1024x1024.Idx) : ∃ t : Fin cfg1.N, (cfg1.win 6).flush t = true ∧ i ∈ ((cfg1.win 6).blk t).view.set := by
  have h0 : (i 0).val < 5 := (i 0).isLt
  have h1 : (i 1).val < 1024 := (i 1).isLt
  have h2 : (i 2).val < 1024 := (i 2).isLt
  have hN : (i 1).val / 256 < cfg1.N := by rw [show cfg1.N = grid1.N from rfl, N_1]; omega
  refine ⟨⟨(i 1).val / 256, hN⟩, flush1_6 _, ?_⟩
  rw [mem_blk1_6]
  obtain ⟨f0a, f0b, f1a, f1b, f2a, f2b, f3a, f3b, f4a, f4b, f5a, f5b, f6a, f6b, f6c⟩ := idx1 ⟨(i 1).val / 256, hN⟩
  intro a
  match a with
  | ⟨0, _⟩ => show win1_6.index ⟨(i 1).val / 256, hN⟩ (0 : Fin 3) * 5 ≤ (i 0).val ∧ (i 0).val < win1_6.index ⟨(i 1).val / 256, hN⟩ (0 : Fin 3) * 5 + 5; omega
  | ⟨1, _⟩ => show win1_6.index ⟨(i 1).val / 256, hN⟩ (1 : Fin 3) * 256 ≤ (i 1).val ∧ (i 1).val < win1_6.index ⟨(i 1).val / 256, hN⟩ (1 : Fin 3) * 256 + 256; rw [f6b]; show (i 1).val / 256 * 256 ≤ (i 1).val ∧ (i 1).val < (i 1).val / 256 * 256 + 256; omega
  | ⟨2, _⟩ => show win1_6.index ⟨(i 1).val / 256, hN⟩ (2 : Fin 3) * 1024 ≤ (i 2).val ∧ (i 2).val < win1_6.index ⟨(i 1).val / 256, hN⟩ (2 : Fin 3) * 1024 + 1024; omega

/-- The output array after the region. -/
theorem final1_6 (c : Dev nD) : ((dat1 V c).arrAt 6 cfg1.N : S5x1024x1024.Idx → Ideal .f32)
    = newStates (V c main_v1) (V c main_arg4) (V c main_v2) (V c main_v4_0) (V c main_v4_1) (V c main_v3) :=
  (dat1 V c).arrAt_eq_of_cover 6 _ (fun t _ => flushed1_6_eq V c t) cover1_6_all

end Cert.KernelIdeal.Val

end
-- ==== Proof.KValue.lean ====
/-
  The kernel program's result is the specification.

  The boundary contents are followed backwards from the result.  The result is the reshape of the second region's
  output array; that array is `newStates` of the six arrays the region finds; of those, the gate and the mix are
  what the first region left — its two payloads of the arrays IT found — and the other four, like the first
  region's five, are what the first host stretch left: the encoding (the features sliced at token 0, the unit axis
  dropped), the block states (the flat vector cut in five), the slopes as one row, and three argument arrays
  untouched.  Read at an entry, each of these is the specification's corresponding term.
-/
import proofs.«141631_j16217796510025_1_alg».proof.Proof.KRun
import proofs.«141631_j16217796510025_1_alg».proof.Proof.KReg0
import proofs.«141631_j16217796510025_1_alg».proof.Proof.KReg1
import Idealize.ShloMosaic.Lib.Pipeline.Value
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx Cert.Spec

variable (m : (ℓ : Loc nD τ sig) → Buf (Elt Ideal) ℓ) (ρ : Dev nD → PrngReg)

/-! ## The host stretches -/

theorem W4_result (c : Dev nD) : (W4 m ρ c (Proc.devRef .tc main_v6) : S5120x1024.Idx → Ideal .f32)
    = shapeCast S5120x1024 (W3 m ρ c (Proc.devRef .tc main_v5) : S5x1024x1024.Idx → Ideal .f32) shapeCasts_S5x1024x1024_S5120x1024 := by
  show StableHlo.after hostOps2 (W3 m ρ c) (Proc.devRef .tc main_v6) = _
  after_results
  rfl

theorem V1_enc (c : Dev nD) : (V1 m ρ c main_v1 : S1024x1024.Idx → Ideal .f32)
    = shapeCast S1024x1024 (extractStridedSlice S1024x1x1024 ![0, 0, 0] (m ((c : Thread nD τ).loc main_arg0) : S1024x128x1024.Idx → Ideal .f32) slices_S1024x128x1024_S1024x1x1024_0_0_0) shapeCasts_S1024x1x1024_S1024x1024 := by
  show StableHlo.after hostOps0 (W0 m ρ c) (Proc.devRef .tc main_v1) = _
  after_results
  rfl

theorem V1_hid (c : Dev nD) : (V1 m ρ c main_v2 : S5x1024.Idx → Ideal .f32)
    = shapeCast S5x1024 (m ((c : Thread nD τ).loc main_arg1) : S5120.Idx → Ideal .f32) shapeCasts_S5120_S5x1024 := by
  show StableHlo.after hostOps0 (W0 m ρ c) (Proc.devRef .tc main_v2) = _
  after_results
  rfl

theorem V1_slope (c : Dev nD) : (V1 m ρ c main_v3 : S1x1024.Idx → Ideal .f32)
    = shapeCast S1x1024 (m ((c : Thread nD τ).loc main_arg6) : S1024.Idx → Ideal .f32) shapeCasts_S1024_S1x1024 := by
  show StableHlo.after hostOps0 (W0 m ρ c) (Proc.devRef .tc main_v3) = _
  after_results
  rfl

theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results

/-! ## The host layouts read at an entry -/

theorem enc_entry (a0 : FVec Ideal S1024x128x1024 .f32) (b k : Fin 1024) :
    shapeCast S1024x1024 (extractStridedSlice S1024x1x1024 ![0, 0, 0] a0 slices_S1024x128x1024_S1024x1x1024_0_0_0) shapeCasts_S1024x1x1024_S1024x1024 (ix2 b k)
      = enc a0 b k := by
  have hb := b.isLt; have hk := k.isLt
  refine (shapeCast_apply _ shapeCasts_S1024x1x1024_S1024x1024 (ix2 b k) (ix3 b (0 : Fin 1) k) (by
    rw [Shape.rowMajor_val_three, Shape.rowMajor_val_two]
    show (b.val * 1 + 0) * 1024 + k.val = b.val * 1024 + k.val; omega)).trans ?_
  exact extractStridedSlice_apply _ a0 _ (ix3 b (0 : Fin 1) k) (ix3 b (0 : Fin 128) k) (fun a => by
    match a with
    | ⟨0, _⟩ => show b.val = 0 + b.val; omega
    | ⟨1, _⟩ => show 0 = 0 + 0; rfl
    | ⟨2, _⟩ => show k.val = 0 + k.val; omega)

theorem hid_entry (a1 : FVec Ideal S5120 .f32) (n : Fin 5) (k : Fin 1024) :
    shapeCast S5x1024 a1 shapeCasts_S5120_S5x1024 (ix2 n k) = hid a1 n k :=
  shapeCast_apply a1 shapeCasts_S5120_S5x1024 (ix2 n k) (ix1 ⟨n.val * 1024 + k.val, flat_lt n k⟩) (by
    rw [Shape.rowMajor_val_one, Shape.rowMajor_val_two]; rfl)

theorem slope_entry (a6 : FVec Ideal S1024 .f32) (j : Fin 1024) :
    shapeCast S1x1024 a6 shapeCasts_S1024_S1x1024 (ix2 (0 : Fin 1) j) = a6 (ix1 j) :=
  shapeCast_a_1a_apply a6 shapeCasts_S1024_S1x1024 (0 : Fin 1) j

/-- Entry `(n, b, j)` of the second region's output, from the arrays the host stretch and the first region left, is the
    specification's new state of block `n`, row `b`, column `j`. -/
theorem entry_eq (a0 : FVec Ideal S1024x128x1024 .f32) (a1 : FVec Ideal S5120 .f32) (a2 a3 a4 : FVec Ideal S1024x1024 .f32)
    (a5 : FVec Ideal S5x1024 .f32) (a6 : FVec Ideal S1024 .f32) (n : Fin 5) (b j : Fin 1024) :
    newStatesAt
        (shapeCast S1024x1024 (extractStridedSlice S1024x1x1024 ![0, 0, 0] a0 slices_S1024x128x1024_S1024x1x1024_0_0_0) shapeCasts_S1024x1x1024_S1024x1024)
        a4 (shapeCast S5x1024 a1 shapeCasts_S5120_S5x1024)
        (k0_pay2 (F := Ideal) (shapeCast S1024x1024 (extractStridedSlice S1024x1x1024 ![0, 0, 0] a0 slices_S1024x128x1024_S1024x1x1024_0_0_0) shapeCasts_S1024x1x1024_S1024x1024)
          (shapeCast S5x1024 a1 shapeCasts_S5120_S5x1024) a5)
        (k0_pay3 (F := Ideal) (shapeCast S5x1024 a1 shapeCasts_S5120_S5x1024) a5 a2 a3)
        (shapeCast S1x1024 a6 shapeCasts_S1024_S1x1024) n b j
      = upd a0 a1 a2 a3 a4 a5 a6 n b j := by
  unfold newStatesAt upd gate mix proj
  rw [hid_entry, gate_apply, mix_apply, slope_entry]
  simp only [enc_entry, hid_entry]

/-! ## The result -/

theorem result_eq (c : Dev nD) : (W4 m ρ c (Proc.devRef .tc main_v6) : S5120x1024.Idx → Ideal .f32)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  -- the arrays the second region finds
  have e_enc : (V2 m ρ c main_v1 : S1024x1024.Idx → Ideal .f32) = V1 m ρ c main_v1 :=
    (W2_arr m ρ c 0).trans (((dat0 (V1 m ρ) c).arrAt_in 0 rfl _).trans (A_eq0 (V1 m ρ) c 0))
  have e_w : (V2 m ρ c main_arg4 : S1024x1024.Idx → Ideal .f32) = m ((c : Thread nD τ).loc main_arg4) :=
    (W2_of_ne m ρ c main_arg4 (by decide)).trans (V1_arg4 m ρ c)
  have e_hid : (V2 m ρ c main_v2 : S5x1024.Idx → Ideal .f32) = V1 m ρ c main_v2 :=
    (W2_arr m ρ c 1).trans (((dat0 (V1 m ρ) c).arrAt_in 1 rfl _).trans (A_eq0 (V1 m ρ) c 1))
  have e_slope : (V2 m ρ c main_v3 : S1x1024.Idx → Ideal .f32) = V1 m ρ c main_v3 := W2_of_ne m ρ c main_v3 (by decide)
  have e_gate : (V2 m ρ c main_v4_0 : S5x1024.Idx → Ideal .f32) = k0_pay2 (F := Ideal) (V1 m ρ c main_v1) (V1 m ρ c main_v2) (V1 m ρ c main_arg5) :=
    (W2_arr m ρ c 5).trans (final0_5 (V1 m ρ) c)
  have e_mix : (V2 m ρ c main_v4_1 : S5x1024.Idx → Ideal .f32) = k0_pay3 (F := Ideal) (V1 m ρ c main_v2) (V1 m ρ c main_arg5) (V1 m ρ c main_arg2) (V1 m ρ c main_arg3) :=
    (W2_arr m ρ c 6).trans (final0_6 (V1 m ρ) c)
  have e_out : (W3 m ρ c (Proc.devRef .tc main_v5) : S5x1024x1024.Idx → Ideal .f32)
      = newStates (V2 m ρ c main_v1) (V2 m ρ c main_arg4) (V2 m ρ c main_v2) (V2 m ρ c main_v4_0) (V2 m ρ c main_v4_1) (V2 m ρ c main_v3) :=
    (W3_arr m ρ c 6).trans (final1_6 (V2 m ρ) c)
  rw [W4_result, e_out, e_enc, e_w, e_hid, e_slope, e_gate, e_mix, V1_enc, V1_hid, V1_slope, V1_arg2, V1_arg3, V1_arg5]
  generalize m ((c : Thread nD τ).loc main_arg0) = a0
  generalize m ((c : Thread nD τ).loc main_arg1) = a1
  generalize m ((c : Thread nD τ).loc main_arg2) = a2
  generalize m ((c : Thread nD τ).loc main_arg3) = a3
  generalize m ((c : Thread nD τ).loc main_arg4) = a4
  generalize m ((c : Thread nD τ).loc main_arg5) = a5
  generalize m ((c : Thread nD τ).loc main_arg6) = a6
  funext i
  obtain ⟨r, j, rfl⟩ : ∃ (r : Fin 5120) (j : Fin 1024), i = ix2 r j := ⟨i 0, i 1, eq_ix2 i⟩
  have hr := r.isLt; have hj := j.isLt
  refine (shapeCast_apply _ shapeCasts_S5x1024x1024_S5120x1024 (ix2 r j)
    (ix3 (⟨r.val / 1024, row_div_lt r⟩ : Fin 5) (⟨r.val % 1024, row_mod_lt r⟩ : Fin 1024) j) (by
      rw [Shape.rowMajor_val_three, Shape.rowMajor_val_two]
      show (r.val / 1024 * 1024 + r.val % 1024) * 1024 + j.val = r.val * 1024 + j.val; omega)).trans ?_
  exact entry_eq a0 a1 a2 a3 a4 a5 a6 _ _ j

end Cert.KernelIdeal.Val

end
-- ==== Proof.RValue.lean ====
/-
  The reference's result is the specification.

  The reference program is a line of host operations; its stages are read here at explicit coordinates.
    · the encoding `enc b k` is the features at `(b, 0, k)`: a slice of the token axis at 0, then the unit axis dropped;
    · block `n` of the states at `k` is the flat vector at `1024·n + k`;
    · the gate is computed as a [1024, 5] array — entry `(j, n)` the logistic function, spelt `1 / (1 + e⁻ˣ)`, of
      `∑ₖ enc j k · (hid n k + key n k)` — and transposed before use; the specification's factors are in the other
      order, and multiplication of extended reals commutes;
    · the three products with transposed weight matrices are sums over the shared axis;
    · the rest is the entrywise `cell`, after which the [5, 1024, 1024] array is reshaped to [5120, 1024]:
      row `r` holds block `r / 1024`, row `r % 1024`.
-/
import proofs.«141631_j16217796510025_1_alg».proof.Proof.Gen.ReferenceIdeal.Read
import proofs.«141631_j16217796510025_1_alg».proof.Proof.Spec
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Spec

/-- The encoding: the first token of each row of the features. -/
theorem enc_at (x0 : FVec Ideal S1024x128x1024 .f32) (b k : Fin 1024) : val_main_v1 (F := Ideal) x0 (ix2 b k) = enc x0 b k := by
  rw [val_main_v1_apply, val_main_v0_apply]
  refine congrArg x0 (funext fun a => Fin.ext ?_)
  have hb := b.isLt; have hk := k.isLt
  match a with
  | ⟨0, _⟩ => show (b.val * 1024 + k.val) / 1024 = b.val; omega
  | ⟨1, _⟩ => rfl
  | ⟨2, _⟩ => show (b.val * 1024 + k.val) % 1024 = k.val; omega

/-- The flat states cut into five blocks. -/
theorem hid_at (x1 : FVec Ideal S5120 .f32) (n : Fin 5) (k : Fin 1024) : val_main_v2 (F := Ideal) x1 (ix2 n k) = hid x1 n k := by
  rw [val_main_v2_apply]
  exact congrArg x1 (funext fun a => by match a with | ⟨0, _⟩ => rfl)

/-- The gate, as the reference lays it out: entry `(j, n)` of a [1024, 5] array. -/
theorem gate_at (x0 : FVec Ideal S1024x128x1024 .f32) (x1 : FVec Ideal S5120 .f32) (x5 : FVec Ideal S5x1024 .f32) (n : Fin 5) (j : Fin 1024) :
    val_main_v11 (F := Ideal) x0 x1 x5 (ix2 j n) = gate x0 x1 x5 n j := by
  rw [val_main_v11_apply, val_main_v10_apply, val_main_cst_0_apply, val_main_v9_apply, val_main_v8_apply, val_main_cst_apply,
    val_main_v7_apply, val_main_v6_apply, val_main_v5_apply]
  have hs : ∀ k : Fin 1024, val_main_v1 (F := Ideal) x0 (lidx_main_v5 (ix2 j n) k) * val_main_v4 (F := Ideal) x1 x5 (ridx_main_v5 (ix2 j n) k)
      = (hid x1 n k + x5 (ix2 n k)) * enc x0 j k := fun k => by
    rw [show lidx_main_v5 (ix2 j n) k = ix2 j k from funext fun a => by match a with | ⟨0, _⟩ => rfl | ⟨1, _⟩ => rfl, enc_at,
      val_main_v4_apply, val_main_v3_apply,
      show idx_main_v4 (ridx_main_v5 (ix2 j n) k) = ix2 n k from funext fun a => by match a with | ⟨0, _⟩ => rfl | ⟨1, _⟩ => rfl, hid_at]
    exact mul_comm _ _
  rw [Finset.sum_congr rfl fun k _ => hs k]
  show Ideal.div (Ideal.ofBits .f32 0x3F800000#32) (Ideal.ofBits .f32 0x3F800000#32 + Ideal.exp (-(∑ k : Fin 1024, (hid x1 n k + x5 (ix2 n k)) * enc x0 j k)))
    = Ideal.logistic (∑ k : Fin 1024, (hid x1 n k + x5 (ix2 n k)) * enc x0 j k)
  rw [Ideal.ofBits_one_f32]
  rfl

/-- The block's own contribution: state through the first matrix plus key through the second. -/
theorem mix_at (x1 : FVec Ideal S5120 .f32) (x2 : FVec Ideal S1024x1024 .f32) (x3 : FVec Ideal S1024x1024 .f32) (x5 : FVec Ideal S5x1024 .f32) (n : Fin 5) (j : Fin 1024) :
    val_main_v16 (F := Ideal) x1 x2 x3 x5 (ix2 n j) = mix x1 x2 x3 x5 n j := by
  rw [val_main_v16_apply, val_main_v13_apply, val_main_v15_apply]
  have h1 : ∀ k : Fin 1024, val_main_v2 (F := Ideal) x1 (lidx_main_v13 (ix2 n j) k) * val_main_v12 (F := Ideal) x2 (ridx_main_v13 (ix2 n j) k)
      = hid x1 n k * x2 (ix2 j k) := fun k => by
    rw [show lidx_main_v13 (ix2 n j) k = ix2 n k from funext fun a => by match a with | ⟨0, _⟩ => rfl | ⟨1, _⟩ => rfl, hid_at, val_main_v12_apply,
      show idx_main_v12 (ridx_main_v13 (ix2 n j) k) = ix2 j k from funext fun a => by match a with | ⟨0, _⟩ => rfl | ⟨1, _⟩ => rfl]
  have h2 : ∀ k : Fin 1024, x5 (lidx_main_v15 (ix2 n j) k) * val_main_v14 (F := Ideal) x3 (ridx_main_v15 (ix2 n j) k)
      = x5 (ix2 n k) * x3 (ix2 j k) := fun k => by
    rw [show lidx_main_v15 (ix2 n j) k = ix2 n k from funext fun a => by match a with | ⟨0, _⟩ => rfl | ⟨1, _⟩ => rfl, val_main_v14_apply,
      show idx_main_v14 (ridx_main_v15 (ix2 n j) k) = ix2 j k from funext fun a => by match a with | ⟨0, _⟩ => rfl | ⟨1, _⟩ => rfl]
  rw [Finset.sum_congr rfl fun k _ => h1 k, Finset.sum_congr rfl fun k _ => h2 k]
  rfl

/-- The encoding's contribution: a row of the encoding through the third matrix. -/
theorem proj_at (x0 : FVec Ideal S1024x128x1024 .f32) (x4 : FVec Ideal S1024x1024 .f32) (b j : Fin 1024) :
    val_main_v19 (F := Ideal) x0 x4 (ix2 b j) = proj x0 x4 b j := by
  rw [val_main_v19_apply]
  have h1 : ∀ k : Fin 1024, val_main_v1 (F := Ideal) x0 (lidx_main_v19 (ix2 b j) k) * val_main_v18 (F := Ideal) x4 (ridx_main_v19 (ix2 b j) k)
      = enc x0 b k * x4 (ix2 j k) := fun k => by
    rw [show lidx_main_v19 (ix2 b j) k = ix2 b k from funext fun a => by match a with | ⟨0, _⟩ => rfl | ⟨1, _⟩ => rfl, enc_at, val_main_v18_apply,
      show idx_main_v18 (ridx_main_v19 (ix2 b j) k) = ix2 j k from funext fun a => by match a with | ⟨0, _⟩ => rfl | ⟨1, _⟩ => rfl]
  rw [Finset.sum_congr rfl fun k _ => h1 k]
  rfl

/-- The [5, 1024, 1024] array of new states, entry by entry. -/
theorem upd_at (x0 : FVec Ideal S1024x128x1024 .f32) (x1 : FVec Ideal S5120 .f32) (x2 : FVec Ideal S1024x1024 .f32) (x3 : FVec Ideal S1024x1024 .f32) (x4 : FVec Ideal S1024x1024 .f32) (x5 : FVec Ideal S5x1024 .f32) (x6 : FVec Ideal S1024 .f32) (n : Fin 5) (b j : Fin 1024) :
    val_main_v41 (F := Ideal) x0 x1 x2 x3 x4 x5 x6 (ix3 n b j) = upd x0 x1 x2 x3 x4 x5 x6 n b j := by
  have eh : val_main_v35 (F := Ideal) x1 (ix3 n b j) = hid x1 n j := by
    rw [val_main_v35_apply, val_main_v30_apply, show idx_main_v30 (idx_main_v35 (ix3 n b j)) = ix2 n j from funext fun a => by match a with | ⟨0, _⟩ => rfl | ⟨1, _⟩ => rfl, hid_at]
  have eg : val_main_v33 (F := Ideal) x0 x1 x5 (ix3 n b j) = gate x0 x1 x5 n j := by
    rw [val_main_v33_apply, val_main_v32_apply, val_main_v31_apply,
      show idx_main_v31 (idx_main_v32 (idx_main_v33 (ix3 n b j))) = ix2 j n from funext fun a => by match a with | ⟨0, _⟩ => rfl | ⟨1, _⟩ => rfl, gate_at]
  have eu : val_main_v21 (F := Ideal) x1 x2 x3 x5 (ix3 n b j) = mix x1 x2 x3 x5 n j := by
    rw [val_main_v21_apply, val_main_v17_apply, show idx_main_v17 (idx_main_v21 (ix3 n b j)) = ix2 n j from funext fun a => by match a with | ⟨0, _⟩ => rfl | ⟨1, _⟩ => rfl, mix_at]
  have ee : val_main_v22 (F := Ideal) x0 x4 (ix3 n b j) = proj x0 x4 b j := by
    rw [val_main_v22_apply, val_main_v20_apply, show idx_main_v20 (idx_main_v22 (ix3 n b j)) = ix2 b j from funext fun a => by match a with | ⟨0, _⟩ => rfl | ⟨1, _⟩ => rfl, proj_at]
  have ea : val_main_v27 (F := Ideal) x6 (ix3 n b j) = x6 (ix1 j) := by
    rw [val_main_v27_apply, val_main_v26_apply]
    exact congrArg x6 (funext fun a => by match a with | ⟨0, _⟩ => rfl)
  rw [val_main_v41_apply, val_main_v40_apply, val_main_v39_apply, val_main_v38_apply, val_main_v37_apply, val_main_cst_2_apply,
    val_main_call1_v0_apply, val_main_cst_3_apply, val_main_v36_apply, val_main_v34_apply, val_main_v29_apply, val_main_v28_apply,
    val_main_v25_apply, val_main_v24_apply, val_main_cst_1_apply, val_main_v23_apply, eh, eg, eu, ee, ea]
  rfl

/-- The reference's result array is the specification's. -/
theorem result_eq (x0 : FVec Ideal S1024x128x1024 .f32) (x1 : FVec Ideal S5120 .f32) (x2 : FVec Ideal S1024x1024 .f32) (x3 : FVec Ideal S1024x1024 .f32) (x4 : FVec Ideal S1024x1024 .f32) (x5 : FVec Ideal S5x1024 .f32) (x6 : FVec Ideal S1024 .f32) :
    val_main_v42 (F := Ideal) x0 x1 x2 x3 x4 x5 x6 = result x0 x1 x2 x3 x4 x5 x6 := by
  funext i
  obtain ⟨r, j, rfl⟩ : ∃ (r : Fin 5120) (j : Fin 1024), i = ix2 r j := ⟨i 0, i 1, eq_ix2 i⟩
  have hr := r.isLt; have hj := j.isLt
  rw [val_main_v42_apply,
    show idx_main_v42 (ix2 r j) = ix3 (⟨r.val / 1024, row_div_lt r⟩ : Fin 5) (⟨r.val % 1024, row_mod_lt r⟩ : Fin 1024) j from
      funext fun a => Fin.ext (by
        match a with
        | ⟨0, _⟩ => show (r.val * 1024 + j.val) / 1048576 = r.val / 1024; omega
        | ⟨1, _⟩ => show (r.val * 1024 + j.val) / 1024 % 1024 = r.val % 1024; omega
        | ⟨2, _⟩ => show (r.val * 1024 + j.val) % 1024 = j.val; omega),
    upd_at]
  rfl

end Cert.ReferenceIdeal.RefValue

end
-- ==== Proof.lean ====
/-
  The certificate: the kernel program (two kernel regions between host reshapes) and the plain reference compute
  the same array on the extended reals.

  The kernel precomputes, in a first region, the per-block gate (a logistic function of inner products of each
  block's state plus key with the rows of the encoding) and the per-block mix (state and key through two weight
  matrices); a second region, tiled over the rows of the encoding, multiplies the tile by the third weight matrix
  and applies, for each of the five blocks, the entrywise update `cell`.  The reference computes the same gate as a
  transposed array, the same products through explicit transposes, and the same entrywise update on a
  [5, 1024, 1024] array.  Both results are `Cert.Spec.result` of the arguments (Proof/KValue.lean, Proof/RValue.lean):
  the only law between the two sides is commutativity of the product inside the gate's sum, so the precondition
  (finite inputs) is not used.  The three frames are the generated ones (the reference's is its generated run with
  the result dropped); the idealization rewrote nothing, so `preserves` is trivial.
-/
import proofs.«141631_j16217796510025_1_alg».proof.Defs
import proofs.«141631_j16217796510025_1_alg».proof.Proof.Gen.Kernel
import proofs.«141631_j16217796510025_1_alg».proof.Proof.Gen.Kernel.Skeleton
import proofs.«141631_j16217796510025_1_alg».proof.Proof.Gen.Kernel.Launch
import proofs.«141631_j16217796510025_1_alg».proof.Proof.Gen.Kernel.Points
import proofs.«141631_j16217796510025_1_alg».proof.Proof.Gen.Kernel.Frame
import proofs.«141631_j16217796510025_1_alg».proof.Proof.Gen.KernelIdeal
import proofs.«141631_j16217796510025_1_alg».proof.Proof.Gen.KernelIdeal.Skeleton
import proofs.«141631_j16217796510025_1_alg».proof.Proof.Gen.KernelIdeal.Launch
import proofs.«141631_j16217796510025_1_alg».proof.Proof.Gen.KernelIdeal.Points
import proofs.«141631_j16217796510025_1_alg».proof.Proof.Gen.KernelIdeal.Frame
import proofs.«141631_j16217796510025_1_alg».proof.Proof.Gen.ReferenceIdeal
import proofs.«141631_j16217796510025_1_alg».proof.Proof.Gen.ReferenceIdeal.Run
import proofs.«141631_j16217796510025_1_alg».proof.Proof.Gen.ReferenceIdeal.Read
import proofs.«141631_j16217796510025_1_alg».proof.Proof.Gen.Pre_finite_inputs
import proofs.«141631_j16217796510025_1_alg».proof.Proof.KValue
import proofs.«141631_j16217796510025_1_alg».proof.Proof.RValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's generated run, its statement about the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's array of the (agreeing) arguments. -/
theorem algebraic : Cert.algebraic_KernelIdeal_ReferenceIdeal := by
  intro m ρ m' ρ' _ hagree
  refine ⟨fun c => Cert.Spec.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.result_eq m ρ c), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
